-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S512x64 : Shape := ⟨2, ![512, 64]⟩
abbrev S128x128 : Shape := ⟨2, ![128, 128]⟩
abbrev S128 : Shape := ⟨1, ![128]⟩
abbrev S192x128 : Shape := ⟨2, ![192, 128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x64 : S_.BroadcastsInDim S512x64 (![] : Fin 0 → Fin S512x64.rank)
  reducesTo_S512x64_S_d0_1 : S512x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S192x128 : S_.BroadcastsInDim S192x128 (![] : Fin 0 → Fin S192x128.rank)
  reducesTo_S192x128_S_d0_1 : S192x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S192x128 .f32) (main_arg10 : FVec F S128 .f32) (main_arg11 : FVec F S128x1 .f32) (main_arg12 : FVec F S1 .f32) (main_v33 : IVec S_ 1) : IVec S_ 1 :=
  let main_v34 : FVec F S192x128 .f32 := Host.absf main_arg9
  let main_cst_12 : FVec F S_ .f32 := constant S_ .f32 0x7F800000#32
  let main_v35 : FVec F S192x128 .f32 := broadcastInDim S192x128 ![] bcast_S_S192x128 main_cst_12
  let main_v36 : IVec S192x128 1 := cmpf .olt main_v34 main_v35
  let main_c_13 : IVec S_ 1 := constantI S_ 1 1#1
  let main_v37 : IVec S_ 1 := (fun x v => Host.reduce IntOp.andi x v reducesTo_S192x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg11
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S192x128 .f32) (main_arg10 : FVec F S128 .f32) (main_arg11 : FVec F S128x1 .f32) (main_arg12 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : FVec F S1600000 .f32) (main_arg3 : IVec S100000 32) (main_arg4 : FVec F S512x64 .f32) (main_arg5 : FVec F S128x128 .f32) (main_arg6 : FVec F S128 .f32) (main_arg7 : FVec F S128x128 .f32) (main_arg8 : FVec F S128 .f32) (main_arg9 : FVec F S192x128 .f32) (main_arg10 : FVec F S128 .f32) (main_arg11 : FVec F S128x1 .f32) (main_arg12 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x64 .f32 := Host.absf main_arg4
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S512x64 : Shape := ⟨2, ![512, 64]⟩
abbrev S128x128 : Shape := ⟨2, ![128, 128]⟩
abbrev S128 : Shape := ⟨1, ![128]⟩
abbrev S192x128 : Shape := ⟨2, ![192, 128]⟩
abbrev S128x1 : Shape := ⟨2, ![128, 1]⟩
abbrev S1 : Shape := ⟨1, ![1]⟩
abbrev S1x1600000 : Shape := ⟨2, ![1, 1600000]⟩
abbrev S_ : Shape := ⟨0, ![]⟩
abbrev S1700000 : Shape := ⟨1, ![1700000]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x192 : Shape := ⟨2, ![512, 192]⟩
abbrev S1x1 : Shape := ⟨2, ![1, 1]⟩

abbrev nBuf : Space → Nat
  | .hbm => 120
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S512x64, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S192x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S1600000, .f32⟩
  | .hbm, ⟨20, _⟩ => ⟨S1600000, .f32⟩
  | .hbm, ⟨21, _⟩ => ⟨S1600000, .f32⟩
  | .hbm, ⟨22, _⟩ => ⟨S1600000, .f32⟩
  | .hbm, ⟨23, _⟩ => ⟨S100000, .i32⟩
  | .hbm, ⟨24, _⟩ => ⟨S1700000, .i32⟩
  | .hbm, ⟨25, _⟩ => ⟨S1700000, .i32⟩
  | .hbm, ⟨26, _⟩ => ⟨S_, .f32⟩
  | .hbm, ⟨27, _⟩ => ⟨S100000, .f32⟩
  | .hbm, ⟨28, _⟩ => ⟨S1700000, .f32⟩
  | .hbm, ⟨29, _⟩ => ⟨S_, .f32⟩
  | .hbm, ⟨30, _⟩ => ⟨S100000, .f32⟩
  | .hbm, ⟨31, _⟩ => ⟨S1700000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .i1⟩
  | .hbm, ⟨36, _⟩ => ⟨S100000, .f32⟩
  | .hbm, ⟨37, _⟩ => ⟨S_, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000, .f32⟩
  | .hbm, ⟨60, _⟩ => ⟨S1700000, .f32⟩
  | .hbm, ⟨61, _⟩ => ⟨S100000x128, .f32⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x128, .f32⟩
  | .hbm, ⟨71, _⟩ => ⟨S1700000x1, .f32⟩
  | .hbm, ⟨72, _⟩ => ⟨S1700000x128, .f32⟩
  | .hbm, ⟨73, _⟩ => ⟨S1700000x128, .f32⟩
  | .hbm, ⟨74, _⟩ => ⟨S_, .f32⟩
  | .hbm, ⟨75, _⟩ => ⟨S100000x128, .f32⟩
  | .hbm, ⟨76, _⟩ => ⟨S1700000x1, .i32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000x128, .f32⟩
  | .hbm, ⟨90, _⟩ => ⟨S1700000x1, .f32⟩
  | .hbm, ⟨91, _⟩ => ⟨S1700000x128, .f32⟩
  | .hbm, ⟨92, _⟩ => ⟨S1700000x128, .f32⟩
  | .hbm, ⟨93, _⟩ => ⟨S_, .f32⟩
  | .hbm, ⟨94, _⟩ => ⟨S100000x128, .f32⟩
  | .hbm, ⟨95, _⟩ => ⟨S1700000x1, .i32⟩
  | .hbm, ⟨96, _⟩ => ⟨S100000x128, .f32⟩
  | .hbm, ⟨97, _⟩ => ⟨S1x128, .f32⟩
  | .hbm, ⟨98, _⟩ => ⟨S100000x128, .f32⟩
  | .hbm, ⟨99, _⟩ => ⟨S_, .f32⟩
  | .hbm, ⟨100, _⟩ => ⟨S512x128, .f32⟩
  | .hbm, ⟨101, _⟩ => ⟨S100000x1, .i32⟩
  | .hbm, ⟨102, _⟩ => ⟨S512x128, .f32⟩
  | .hbm, ⟨103, _⟩ => ⟨S_, .f32⟩
  | .hbm, ⟨104, _⟩ => ⟨S100000, .f32⟩
  | .hbm, ⟨105, _⟩ => ⟨S_, .f32⟩
  | .hbm, ⟨106, _⟩ => ⟨S512, .f32⟩
  | .hbm, ⟨107, _⟩ => ⟨S100000x1, .i32⟩
  | .hbm, ⟨108, _⟩ => ⟨S512, .f32⟩
  | .hbm, ⟨109, _⟩ => ⟨S_, .f32⟩
  | .hbm, ⟨110, _⟩ => ⟨S512, .f32⟩
  | .hbm, ⟨111, _⟩ => ⟨S512, .f32⟩
  | .hbm, ⟨112, _⟩ => ⟨S512x1, .f32⟩
  | .hbm, ⟨113, _⟩ => ⟨S512x128, .f32⟩
  | .hbm, ⟨114, _⟩ => ⟨S512x128, .f32⟩
  | .hbm, ⟨115, _⟩ => ⟨S512x192, .f32⟩
  | .hbm, ⟨116, _⟩ => ⟨S1x128, .f32⟩
  | .hbm, ⟨117, _⟩ => ⟨S1x1, .f32⟩
  | .hbm, ⟨118, _⟩ => ⟨S512x1, .f32⟩
  | .hbm, ⟨119, _⟩ => ⟨S512, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S512x192, .f32⟩
  | .local _ .vmem, ⟨21, _⟩ => ⟨S192x128, .f32⟩
  | .local _ .vmem, ⟨22, _⟩ => ⟨S1x128, .f32⟩
  | .local _ .vmem, ⟨23, _⟩ => ⟨S128x1, .f32⟩
  | .local _ .vmem, ⟨24, _⟩ => ⟨S1x1, .f32⟩
  | .local _ .vmem, ⟨25, _⟩ => ⟨S512x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v20 : Ref sig .tc := ⟨.hbm, 40, rfl⟩
abbrev main_c : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_7 : Ref sig .tc := ⟨.hbm, 62, rfl⟩
abbrev main_v38 : Ref sig .tc := ⟨.hbm, 63, rfl⟩
abbrev main_v39 : Ref sig .tc := ⟨.hbm, 64, rfl⟩
abbrev main_c_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_9 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_10 : Ref sig .tc := ⟨.hbm, 81, rfl⟩
abbrev main_v54 : Ref sig .tc := ⟨.hbm, 82, rfl⟩
abbrev main_v55 : Ref sig .tc := ⟨.hbm, 83, rfl⟩
abbrev main_c_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_12 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_13 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_14 : Ref sig .tc := ⟨.hbm, 103, rfl⟩
abbrev main_v72 : Ref sig .tc := ⟨.hbm, 104, rfl⟩
abbrev main_cst_15 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_16 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc4_stg4_0 : Ref sig .tc := ⟨.vmem, 24, rfl⟩
abbrev cc4_stg5_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23
abbrev cc4_sem4_0 : DmaSem sig := 24
abbrev cc4_sem5_0 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x192 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S192x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  concatenates_S512x128_S512x64_S512x192_d1 : Shape.Concatenates [S512x128, S512x64] S512x192 1
  shapeCasts_S1_S1x1 : S1.ShapeCasts S1x1
  inb_S512x192_S512x192_0_0 : ∀ a, (![0, 0] : Fin 2 → Nat) a + S512x192.size a ≤ S512x192.size a
  h_S512x192 : 0 < S512x192.numel
  shapeCasts_S512x192_S512x192 : S512x192.ShapeCasts S512x192
  inb_S192x128_S192x128_0_0 : ∀ a, (![0, 0] : Fin 2 → Nat) a + S192x128.size a ≤ S192x128.size a
  h_S192x128 : 0 < S192x128.numel
  broadcasts_S1x128_S512x128 : S1x128.Broadcasts S512x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  shapeCasts_S512x1_S512 : S512x1.ShapeCasts S512
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x192_S192x128_S512x128_1_0_0_1_n_n_wf : DotDims.WF S512x192 S192x128 S512x128 [1] [0] [0] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x192.size a ≤ S512x192.size a
  hwx4_0 : ∀ i : grid4.Coords, EltTy.bits .f32 = 32 ∨ (Rect.block (s := S512x192) S512x192.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S192x128.size a ≤ S192x128.size a
  hwx4_1 : ∀ i : grid4.Coords, EltTy.bits .f32 = 32 ∨ (Rect.block (s := S192x128) S192x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x1.size a ≤ S128x1.size a
  hwx4_3 : ∀ i : grid4.Coords, EltTy.bits .f32 = 32 ∨ (Rect.block (s := S128x1) S128x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x1.size a ≤ S512x1.size a
  hwx4_5 : ∀ i : grid4.Coords, EltTy.bits .f32 = 32 ∨ (Rect.block (s := S512x1) S512x1.size (cc4_transform_5 i) (hinb4_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x192_S192x128_S512x128_1_0_0_1_n_n : DotDims S512x192 S192x128 S512x128 where
  lhsContracting := [1]
  rhsContracting := [0]
  lhsNonContracting := [0]
  rhsNonContracting := [1]
  lhsBatch := []
  rhsBatch := []
  wf := dot_S512x192_S192x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v66) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v81) S512x192.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S192x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v82) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S128x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v83) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v84) S512x1.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S512x64 : Shape := ⟨2, ![512, 64]⟩
abbrev S128x128 : Shape := ⟨2, ![128, 128]⟩
abbrev S128 : Shape := ⟨1, ![128]⟩
abbrev S192x128 : Shape := ⟨2, ![192, 128]⟩
abbrev S128x1 : Shape := ⟨2, ![128, 1]⟩
abbrev S1 : Shape := ⟨1, ![1]⟩
abbrev S1x1600000 : Shape := ⟨2, ![1, 1600000]⟩
abbrev S_ : Shape := ⟨0, ![]⟩
abbrev S1700000 : Shape := ⟨1, ![1700000]⟩
abbrev S1700000x1 : Shape := ⟨2, ![1700000, 1]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x192 : Shape := ⟨2, ![512, 192]⟩
abbrev S1x1 : Shape := ⟨2, ![1, 1]⟩

abbrev nBuf : Space → Nat
  | .hbm => 168
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S100000, .i32⟩
  | 4 => ⟨S512x64, .f32⟩
  | 5 => ⟨S128x128, .f32⟩
  | 6 => ⟨S128, .f32⟩
  | 7 => ⟨S128x128, .f32⟩
  | 8 => ⟨S128, .f32⟩
  | 9 => ⟨S192x128, .f32⟩
  | 10 => ⟨S128, .f32⟩
  | 11 => ⟨S128x1, .f32⟩
  | 12 => ⟨S1, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S1600000, .f32⟩
  | 20 => ⟨S1600000, .f32⟩
  | 21 => ⟨S1600000, .f32⟩
  | 22 => ⟨S1600000, .f32⟩
  | 23 => ⟨S100000, .i32⟩
  | 24 => ⟨S1700000, .i32⟩
  | 25 => ⟨S1700000, .i32⟩
  | 26 => ⟨S_, .f32⟩
  | 27 => ⟨S100000, .f32⟩
  | 28 => ⟨S1700000, .f32⟩
  | 29 => ⟨S100000x128, .f32⟩
  | 30 => ⟨S_, .f32⟩
  | 31 => ⟨S100000, .f32⟩
  | 32 => ⟨S1700000x1, .i32⟩
  | 33 => ⟨S100000, .f32⟩
  | 34 => ⟨S_, .f32⟩
  | 35 => ⟨S100000, .f32⟩
  | 36 => ⟨S100000, .i1⟩
  | 37 => ⟨S100000, .f32⟩
  | 38 => ⟨S_, .f32⟩
  | 39 => ⟨S_, .f32⟩
  | 40 => ⟨S100000, .f32⟩
  | 41 => ⟨S100000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000, .f32⟩
  | 61 => ⟨S1700000, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000x128, .f32⟩
  | 71 => ⟨S1700000x1, .f32⟩
  | 72 => ⟨S1700000x128, .f32⟩
  | 73 => ⟨S1700000x128, .f32⟩
  | 74 => ⟨S_, .f32⟩
  | 75 => ⟨S100000x128, .f32⟩
  | 76 => ⟨S1700000x1, .i32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S100000x128, .f32⟩
  | 85 => ⟨S_, .f32⟩
  | 86 => ⟨S100000, .f32⟩
  | 87 => ⟨S1700000x1, .i32⟩
  | 88 => ⟨S100000, .f32⟩
  | 89 => ⟨S_, .f32⟩
  | 90 => ⟨S100000, .f32⟩
  | 91 => ⟨S100000, .i1⟩
  | 92 => ⟨S100000, .f32⟩
  | 93 => ⟨S_, .f32⟩
  | 94 => ⟨S_, .f32⟩
  | 95 => ⟨S100000, .f32⟩
  | 96 => ⟨S100000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000, .f32⟩
  | 106 => ⟨S1700000, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000, .f32⟩
  | 116 => ⟨S1700000, .f32⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000x128, .f32⟩
  | 126 => ⟨S1700000x1, .f32⟩
  | 127 => ⟨S1700000x128, .f32⟩
  | _ => ⟨S100000x128, .f32⟩

abbrev hbmTy0_1 (i : Nat) : BufTy := match i % 128 with
  | 0 => ⟨S1700000x128, .f32⟩
  | 1 => ⟨S_, .f32⟩
  | 2 => ⟨S100000x128, .f32⟩
  | 3 => ⟨S1700000x1, .i32⟩
  | 4 => ⟨S100000x128, .f32⟩
  | 5 => ⟨S1x128, .f32⟩
  | 6 => ⟨S100000x128, .f32⟩
  | 7 => ⟨S100000x128, .f32⟩
  | 8 => ⟨S_, .f32⟩
  | 9 => ⟨S100000x128, .f32⟩
  | 10 => ⟨S100000x128, .f32⟩
  | 11 => ⟨S_, .f32⟩
  | 12 => ⟨S512x128, .f32⟩
  | 13 => ⟨S100000x1, .i32⟩
  | 14 => ⟨S512x128, .f32⟩
  | 15 => ⟨S_, .f32⟩
  | 16 => ⟨S100000, .f32⟩
  | 17 => ⟨S_, .f32⟩
  | 18 => ⟨S512, .f32⟩
  | 19 => ⟨S100000x1, .i32⟩
  | 20 => ⟨S512, .f32⟩
  | 21 => ⟨S_, .f32⟩
  | 22 => ⟨S512, .f32⟩
  | 23 => ⟨S512, .f32⟩
  | 24 => ⟨S512x1, .f32⟩
  | 25 => ⟨S512x128, .f32⟩
  | 26 => ⟨S512x128, .f32⟩
  | 27 => ⟨S512x192, .f32⟩
  | 28 => ⟨S512x128, .f32⟩
  | 29 => ⟨S1x128, .f32⟩
  | 30 => ⟨S512x128, .f32⟩
  | 31 => ⟨S512x128, .f32⟩
  | 32 => ⟨S_, .f32⟩
  | 33 => ⟨S512x128, .f32⟩
  | 34 => ⟨S512x128, .f32⟩
  | 35 => ⟨S512x1, .f32⟩
  | 36 => ⟨S1x1, .f32⟩
  | 37 => ⟨S512x1, .f32⟩
  | 38 => ⟨S512x1, .f32⟩
  | 39 => ⟨S512, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v21 : Ref sig .tc := ⟨.hbm, 41, rfl⟩
abbrev main_c : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_7 : Ref sig .tc := ⟨.hbm, 62, rfl⟩
abbrev main_v38 : Ref sig .tc := ⟨.hbm, 63, rfl⟩
abbrev main_v39 : Ref sig .tc := ⟨.hbm, 64, rfl⟩
abbrev main_c_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_9 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call1_cst : Ref sig .tc := ⟨.hbm, 81, rfl⟩
abbrev main_call1_v0 : Ref sig .tc := ⟨.hbm, 82, rfl⟩
abbrev main_v54 : Ref sig .tc := ⟨.hbm, 83, rfl⟩
abbrev main_v55 : Ref sig .tc := ⟨.hbm, 84, rfl⟩
abbrev main_cst_10 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_12 : Ref sig .tc := ⟨.hbm, 93, rfl⟩
abbrev main_call2_v0 : Ref sig .tc := ⟨.hbm, 94, rfl⟩
abbrev main_call2_v1 : Ref sig .tc := ⟨.hbm, 95, rfl⟩
abbrev main_v62 : Ref sig .tc := ⟨.hbm, 96, rfl⟩
abbrev main_c_13 : Ref sig .tc := ⟨.hbm, 97, rfl⟩
abbrev main_v63 : Ref sig .tc := ⟨.hbm, 98, rfl⟩
abbrev main_v64 : Ref sig .tc := ⟨.hbm, 99, rfl⟩
abbrev main_c_14 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_c_15 : Ref sig .tc := ⟨.hbm, 107, rfl⟩
abbrev main_v71 : Ref sig .tc := ⟨.hbm, 108, rfl⟩
abbrev main_v72 : Ref sig .tc := ⟨.hbm, 109, rfl⟩
abbrev main_c_16 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_c_17 : Ref sig .tc := ⟨.hbm, 117, rfl⟩
abbrev main_v79 : Ref sig .tc := ⟨.hbm, 118, rfl⟩
abbrev main_v80 : Ref sig .tc := ⟨.hbm, 119, rfl⟩
abbrev main_c_18 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_19 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_call3_cst : Ref sig .tc := ⟨.hbm, 136, rfl⟩
abbrev main_call3_v0 : Ref sig .tc := ⟨.hbm, 137, rfl⟩
abbrev main_v95 : Ref sig .tc := ⟨.hbm, 138, rfl⟩
abbrev main_cst_20 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_21 : Ref sig .tc := ⟨.hbm, 143, rfl⟩
abbrev main_v99 : Ref sig .tc := ⟨.hbm, 144, rfl⟩
abbrev main_cst_22 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_23 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_call4_cst : Ref sig .tc := ⟨.hbm, 160, rfl⟩
abbrev main_call4_v0 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  concatenates_S512x128_S512x64_S512x192_d1 : Shape.Concatenates [S512x128, S512x64] S512x192 1
  bcast_S1x128_S512x128_0_1 : S1x128.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  shapeCasts_S512x1_S512 : S512x1.ShapeCasts S512
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x192_S192x128_S512x128_1_0_0_1_n_n_wf : DotDims.WF S512x192 S192x128 S512x128 [1] [0] [0] [1] [] []
  dot_S512x128_S128x1_S512x1_1_0_0_1_n_n_wf : DotDims.WF S512x128 S128x1 S512x1 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x192_S192x128_S512x128_1_0_0_1_n_n : DotDims S512x192 S192x128 S512x128 where
  lhsContracting := [1]
  rhsContracting := [0]
  lhsNonContracting := [0]
  rhsNonContracting := [1]
  lhsBatch := []
  rhsBatch := []
  wf := dot_S512x192_S192x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.KernelRun.lean ====
/-
  The idealized kernel's whole run, with its result named.

  The program is five kernel launches among stretches of host operations. The buffer contents at the boundary after
  each stretch and each launch form a chain from the launch memory: a stretch applies its operations to the contents
  before it; a launch leaves each of its arrays at what its grid points wrote back and every other buffer alone. Every
  weakly fair execution terminates, without a fault, with every unscoped buffer at the last boundary's contents: so
  the result buffer ends at the last boundary's value for it, and each argument as launched.
-/
import proofs.«100806_j34437047779687_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last boundary's contents and the arguments as
    launched: the launch over the program's twelve segments, the last thread state read against the final state. -/
theorem run : θ_run defs (onTc (τ := τ) (main (F := F))) ⟨m, fun _ => 0, ρ⟩ (fun r => ∀ c : Dev nD,
      r.2.mem ((c.tc : Thread nD τ).loc main_v85) = W12 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v85 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KernelIdeal.Whole

end
-- ==== Proof.LibPlainMatmul.lean ====
/-
  A plain matrix product into a zero accumulator, read at an entry.

  For a dot whose dimension numbers contract the left operand's columns against the right operand's rows, with no batch
  axis — `[M, K] × [K, N] → [M, N]` — the product accumulated into the zero splat is, at the extended reals, the
  textbook sum: entry `(p, c)` is the sum over `k` of `lhs (p, k) · rhs (k, c)`. The dimension numbers enter only
  through four coordinate facts about the dot's operand indices (which a literal record proves by evaluating its
  membership tests) and the fact that exactly one axis, of extent `K`, is contracted; the lemma is general in the
  extents, the element types and the contraction precision, so it serves every such product of a kernel body.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

/-- Entry `(p, c)` of `lhs · rhs` accumulated into zero is `Σ k, lhs (p, k) · rhs (k, c)`: the dot's sum over its
    one-axis contraction index, re-indexed along the bijection of that index with `Fin K`, each operand index then
    identified by its two coordinates. -/
theorem matmul_zero_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (c : Fin N) :
    matmul D prec lhs rhs (constant ⟨2, ![M, N]⟩ .f32 0x00000000#32) (ix2 p c)
      = ∑ k : Fin K, lhs (ix2 p k) * rhs (ix2 k c) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainMatmul

end
-- ==== Proof.LibBroadcastIn.lean ====
/-
  A `broadcast_in_dim` of a small shape, read at an index.

  The five forms a gather/scatter program and a row-wise normalisation meet: a scalar spread over any shape reads
  the scalar everywhere; a vector made into a one-column matrix reads the vector at the row; a one-column matrix
  spread over the columns reads its column at the row; a vector made into a one-row matrix reads the vector at the
  column; and a one-row matrix spread over the rows reads its row at the column. All are general in the extents.
-/
import Idealize.ShloMosaic.Lib.Pipeline.Value
import Idealize.ShloMosaic.Lib.ValueIdx

noncomputable section

namespace Cert.LibBroadcastIn

open Idealize.ShloMosaic Idealize.ShloMosaic.ValueIdx

variable {α : Type}

/-- A scalar spread over any shape reads, everywhere, the scalar. -/
theorem scalar_apply {t : Shape} (h : (⟨0, ![]⟩ : Shape).BroadcastsInDim t (![] : Fin 0 → Fin t.rank))
    (y : (⟨0, ![]⟩ : Shape).Idx → α) (j : t.Idx) : broadcastInDim t ![] h y j = y ix0 :=
  broadcastInDim_apply _ h y j ix0 (fun a => a.elim0)

/-- `[a] → [a, 1]` along axis 0: entry (e, u) is the vector's entry e. -/
theorem col_apply {a : ℕ} (h : (⟨1, ![a]⟩ : Shape).BroadcastsInDim ⟨2, ![a, 1]⟩ (![0] : Fin 1 → Fin 2))
    (y : (⟨1, ![a]⟩ : Shape).Idx → α) (e : Fin a) (u : Fin 1) :
    broadcastInDim ⟨2, ![a, 1]⟩ ![0] h y (ix2 e u) = y (ix1 e) := by
  refine broadcastInDim_apply _ h y (ix2 e u) (ix1 e) fun ax => ?_
  match ax with
  | ⟨0, _⟩ =>
    show e.val = if a = 1 then 0 else e.val
    split
    · have := e.isLt; omega
    · rfl

/-- `[a, 1] → [a, b]`: entry (e, c) is the column's entry (e, 0). -/
theorem rows_apply {a b : ℕ} (h : (⟨2, ![a, 1]⟩ : Shape).BroadcastsInDim ⟨2, ![a, b]⟩ (![0, 1] : Fin 2 → Fin 2))
    (y : (⟨2, ![a, 1]⟩ : Shape).Idx → α) (e : Fin a) (c : Fin b) :
    broadcastInDim ⟨2, ![a, b]⟩ ![0, 1] h y (ix2 e c) = y (ix2 e (0 : Fin 1)) := by
  refine broadcastInDim_apply _ h y (ix2 e c) (ix2 e (0 : Fin 1)) fun ax => ?_
  match ax with
  | ⟨0, _⟩ =>
    show e.val = if a = 1 then 0 else e.val
    split
    · have := e.isLt; omega
    · rfl
  | ⟨1, _⟩ =>
    show (0 : ℕ) = if (1 : ℕ) = 1 then 0 else c.val
    rw [if_pos rfl]

/-- `[b] → [1, b]` along axis 1: entry (u, c) is the vector's entry c. -/
theorem row1_apply {b : ℕ} (h : (⟨1, ![b]⟩ : Shape).BroadcastsInDim ⟨2, ![1, b]⟩ (![1] : Fin 1 → Fin 2))
    (y : (⟨1, ![b]⟩ : Shape).Idx → α) (u : Fin 1) (c : Fin b) :
    broadcastInDim ⟨2, ![1, b]⟩ ![1] h y (ix2 u c) = y (ix1 c) := by
  refine broadcastInDim_apply _ h y (ix2 u c) (ix1 c) fun ax => ?_
  match ax with
  | ⟨0, _⟩ =>
    show c.val = if b = 1 then 0 else c.val
    split
    · have := c.isLt; omega
    · rfl

/-- `[1, b] → [a, b]`: entry (r, c) is the row's entry (0, c). -/
theorem tile_apply {a b : ℕ} (h : (⟨2, ![1, b]⟩ : Shape).BroadcastsInDim ⟨2, ![a, b]⟩ (![0, 1] : Fin 2 → Fin 2))
    (y : (⟨2, ![1, b]⟩ : Shape).Idx → α) (r : Fin a) (c : Fin b) :
    broadcastInDim ⟨2, ![a, b]⟩ ![0, 1] h y (ix2 r c) = y (ix2 (0 : Fin 1) c) := by
  refine broadcastInDim_apply _ h y (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end Cert.LibBroadcastIn

end
-- ==== Proof.LibBiasRow.lean ====
/-
  A bias row added to every row of a matrix, read at an entry.

  A kernel body adds a bias by casting the length-N vector to a 1×N matrix and broadcasting it over the M rows; the
  host adds it by two broadcasts in dimension, first to 1×N and then to M×N. Either way entry (p, c) of the result
  is entry c of the vector. Both lemmas are general in the extents and the element type.
-/
import Idealize.ShloMosaic.Lib.ValueLayout
import proofs.«100806_j34437047779687_1_alg».proof.Proof.LibBroadcastIn

noncomputable section

namespace Cert.LibBiasRow

open Idealize.ShloMosaic Idealize.ShloMosaic.ValueIdx

variable {α : Type}

/-- The kernel's spelling: a vector cast to one row and broadcast over the rows reads the vector at the column. -/
theorem cast_broadcast_apply {M N : ℕ} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ b hc) hb (ix2 p c) = b (ix1 c) :=
  (broadcastTo_1b_ab_apply _ hb p c).trans (shapeCast_a_1a_apply b hc 0 c)

/-- The host's spelling: a vector made one row and that row tiled over the rows reads the vector at the column. -/
theorem row_tile_apply {M N : ℕ} (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (p : Fin M) (c : Fin N) :
    broadcastInDim ⟨2, ![M, N]⟩ ![0, 1] h2 (broadcastInDim ⟨2, ![1, N]⟩ ![1] h1 b) (ix2 p c) = b (ix1 c) :=
  (Cert.LibBroadcastIn.tile_apply h2 _ p c).trans (Cert.LibBroadcastIn.row1_apply h1 b 0 c)

end Cert.LibBiasRow

end
-- ==== Proof.Payloads.lean ====
/-
  What each kernel body stores, read at one entry, at the extended reals.

  The two projection bodies store a matrix product of their row block with the whole weight matrix: entry (r, q)
  is the sum over k of block (r, k) times weight (k, q) — the narrowing of both operands to bf16 is the identity on
  the extended reals, and a product accumulated into zero is the textbook sum. The two bias bodies store
  max (block (r, q) + bias (0, q), 0). The pooled body stores a two-layer perceptron of its 512 rows: the first
  product plus its bias row, clamped below at zero, then the product with the one output column plus the scalar bias.
-/
import proofs.«100806_j34437047779687_1_alg».proof.Proof.Gen.KernelIdeal.Skeleton
import proofs.«100806_j34437047779687_1_alg».proof.Proof.LibPlainMatmul
import proofs.«100806_j34437047779687_1_alg».proof.Proof.LibBiasRow
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-! ## The three product records: which operand coordinate each result and contraction coordinate feeds -/

theorem dRows_l0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem dRows_l1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem dRows_r0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem dRows_r1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

theorem dHid_l0 (i : S512x128.Idx) (q : dot_S512x192_S192x128_S512x128_1_0_0_1_n_n.contr.Idx) :
    (dot_S512x192_S192x128_S512x128_1_0_0_1_n_n.lhsIdx i q 0).val = (i 0).val := by
  unfold DotDims.lhsIdx
  rw [dif_neg (show ¬(0 : Fin S512x192.rank) ∈ dot_S512x192_S192x128_S512x128_1_0_0_1_n_n.lhsBatch by decide),
    dif_pos (show (0 : Fin S512x192.rank) ∈ dot_S512x192_S192x128_S512x128_1_0_0_1_n_n.lhsNonContracting by decide)]
  rfl
theorem dHid_l1 (i : S512x128.Idx) (q : dot_S512x192_S192x128_S512x128_1_0_0_1_n_n.contr.Idx) :
    (dot_S512x192_S192x128_S512x128_1_0_0_1_n_n.lhsIdx i q 1).val = (q ⟨0, by decide⟩).val :=
  dot_S512x192_S192x128_S512x128_1_0_0_1_n_n.lhsIdx_val_of_single rfl i q
theorem dHid_r0 (i : S512x128.Idx) (q : dot_S512x192_S192x128_S512x128_1_0_0_1_n_n.contr.Idx) :
    (dot_S512x192_S192x128_S512x128_1_0_0_1_n_n.rhsIdx i q 0).val = (q ⟨0, by decide⟩).val :=
  dot_S512x192_S192x128_S512x128_1_0_0_1_n_n.rhsIdx_val_of_single rfl i q
theorem dHid_r1 (i : S512x128.Idx) (q : dot_S512x192_S192x128_S512x128_1_0_0_1_n_n.contr.Idx) :
    (dot_S512x192_S192x128_S512x128_1_0_0_1_n_n.rhsIdx i q 1).val = (i 1).val := by
  unfold DotDims.rhsIdx
  rw [dif_neg (show ¬(1 : Fin S192x128.rank) ∈ dot_S512x192_S192x128_S512x128_1_0_0_1_n_n.rhsBatch by decide),
    dif_pos (show (1 : Fin S192x128.rank) ∈ dot_S512x192_S192x128_S512x128_1_0_0_1_n_n.rhsNonContracting by decide)]
  rfl

theorem dOut_l0 (i : S512x1.Idx) (q : dot_S512x128_S128x1_S512x1_1_0_0_1_n_n.contr.Idx) :
    (dot_S512x128_S128x1_S512x1_1_0_0_1_n_n.lhsIdx i q 0).val = (i 0).val := by
  unfold DotDims.lhsIdx
  rw [dif_neg (show ¬(0 : Fin S512x128.rank) ∈ dot_S512x128_S128x1_S512x1_1_0_0_1_n_n.lhsBatch by decide),
    dif_pos (show (0 : Fin S512x128.rank) ∈ dot_S512x128_S128x1_S512x1_1_0_0_1_n_n.lhsNonContracting by decide)]
  rfl
theorem dOut_l1 (i : S512x1.Idx) (q : dot_S512x128_S128x1_S512x1_1_0_0_1_n_n.contr.Idx) :
    (dot_S512x128_S128x1_S512x1_1_0_0_1_n_n.lhsIdx i q 1).val = (q ⟨0, by decide⟩).val :=
  dot_S512x128_S128x1_S512x1_1_0_0_1_n_n.lhsIdx_val_of_single rfl i q
theorem dOut_r0 (i : S512x1.Idx) (q : dot_S512x128_S128x1_S512x1_1_0_0_1_n_n.contr.Idx) :
    (dot_S512x128_S128x1_S512x1_1_0_0_1_n_n.rhsIdx i q 0).val = (q ⟨0, by decide⟩).val :=
  dot_S512x128_S128x1_S512x1_1_0_0_1_n_n.rhsIdx_val_of_single rfl i q
theorem dOut_r1 (i : S512x1.Idx) (q : dot_S512x128_S128x1_S512x1_1_0_0_1_n_n.contr.Idx) :
    (dot_S512x128_S128x1_S512x1_1_0_0_1_n_n.rhsIdx i q 1).val = (i 1).val := by
  unfold DotDims.rhsIdx
  rw [dif_neg (show ¬(1 : Fin S128x1.rank) ∈ dot_S512x128_S128x1_S512x1_1_0_0_1_n_n.rhsBatch by decide),
    dif_pos (show (1 : Fin S128x1.rank) ∈ dot_S512x128_S128x1_S512x1_1_0_0_1_n_n.rhsNonContracting by decide)]
  rfl

/-- The zero of the float format is the real number zero. -/
theorem zero_word : Ideal.ofBits .f32 0x00000000#32 = (0 : EReal) := Ideal.ofBits_zero_f32

/-! ## The projection bodies -/

/-- A row block times the weight matrix, into zero: entry (r, q) is Σ k, block (r, k) · weight (k, q). -/
theorem rows_matmul (x : FVec Ideal S5000x128 .f32) (w : FVec Ideal S128x128 .f32) (r : Fin 5000) (q : Fin 128) :
    matmul dot_S5000x128_S128x128_S5000x128_1_0_0_1_n_n none
        (truncf .bf16 x bitsLt_bf16_f32) (truncf .bf16 w bitsLt_bf16_f32) (constant S5000x128 .f32 0x00000000#32) (ix2 r q)
      = ∑ k : Fin 128, x (ix2 r k) * w (ix2 k q) :=
  Cert.LibPlainMatmul.matmul_zero_ix2 dot_S5000x128_S128x128_S5000x128_1_0_0_1_n_n none rfl rfl
    dRows_l0 dRows_l1 dRows_r0 dRows_r1 (truncf .bf16 x bitsLt_bf16_f32) (truncf .bf16 w bitsLt_bf16_f32) r q

/-- The first projection's stored block. -/
theorem proj1_apply (x : Vec Ideal S5000x128 .f32) (w : Vec Ideal S128x128 .f32) (r : Fin 5000) (q : Fin 128) :
    k0_pay1 x w (ix2 r q) = ∑ k : Fin 128, x (ix2 r k) * w (ix2 k q) := by
  unfold k0_pay1
  exact rows_matmul x w r q

/-- The second projection's stored block (its input block passes through a cast to its own shape first). -/
theorem proj2_apply (x : Vec Ideal S5000x128 .f32) (w : Vec Ideal S128x128 .f32) (r : Fin 5000) (q : Fin 128) :
    k2_pay1 x w (ix2 r q) = ∑ k : Fin 128, x (ix2 r k) * w (ix2 k q) := by
  unfold k2_pay1
  simp only [shapeCast_self]
  exact rows_matmul x w r q

/-! ## The bias bodies -/

/-- A block plus the bias row spread over its rows, clamped below at zero. -/
theorem bias_clamp (h : FVec Ideal S5000x128 .f32) (b : FVec Ideal S1x128 .f32) (r : Fin 5000) (q : Fin 128) :
    maximumf (addf (shapeCast S5000x128 h shapeCasts_S5000x128_S5000x128)
        (broadcastTo S5000x128 (shapeCast S1x128 b shapeCasts_S1x128_S1x128) broadcasts_S1x128_S5000x128))
      (broadcast S5000x128 (Scalar.ofBits .f32 0x00000000#32)) (ix2 r q)
      = max (h (ix2 r q) + b (ix2 (0 : Fin 1) q)) 0 := by
  rw [maximumf_apply, addf_apply, broadcast_apply, shapeCast_self, shapeCast_self,
    broadcastTo_1b_ab_apply (a := 5000) (b := 128) b broadcasts_S1x128_S5000x128 r q]
  exact congrArg _ zero_word

theorem bias1_apply (h : Vec Ideal S5000x128 .f32) (b : Vec Ideal S1x128 .f32) (r : Fin 5000) (q : Fin 128) :
    k1_pay1 h b (ix2 r q) = max (h (ix2 r q) + b (ix2 (0 : Fin 1) q)) 0 := by
  unfold k1_pay1
  exact bias_clamp h b r q

theorem bias2_apply (h : Vec Ideal S5000x128 .f32) (b : Vec Ideal S1x128 .f32) (r : Fin 5000) (q : Fin 128) :
    k3_pay1 h b (ix2 r q) = max (h (ix2 r q) + b (ix2 (0 : Fin 1) q)) 0 := by
  unfold k3_pay1
  exact bias_clamp h b r q

/-! ## The pooled body -/

/-- The hidden layer of the pooled body at entry (r, j): (Σ k, features (r, k) · W (k, j)) + bias (0, j), clamped at zero. -/
def hidden (g : FVec Ideal S512x192 .f32) (w : FVec Ideal S192x128 .f32) (b : FVec Ideal S1x128 .f32) (r : Fin 512) (j : Fin 128) : EReal :=
  max ((∑ k : Fin 192, g (ix2 r k) * w (ix2 k j)) + b (ix2 (0 : Fin 1) j)) 0

/-- The pooled body's stored column: entry (r, 0) is (Σ j, hidden (r, j) · V (j, 0)) + the scalar bias. -/
theorem pooled_apply (g : Vec Ideal S512x192 .f32) (w : Vec Ideal S192x128 .f32) (b : Vec Ideal S1x128 .f32)
    (v : Vec Ideal S128x1 .f32) (d : Vec Ideal S1x1 .f32) (r : Fin 512) (u : Fin 1) :
    k4_pay1 g w b v d (ix2 r u)
      = (∑ j : Fin 128, hidden g w b r j * v (ix2 j u)) + d (ix2 (0 : Fin 1) u) := by
  unfold k4_pay1
  simp only [shapeCast_self]
  rw [addf_apply, broadcastTo_1b_ab_apply (a := 512) (b := 1) d broadcasts_S1x1_S512x1 r u]
  refine congrArg (· + d (ix2 (0 : Fin 1) u)) ?_
  refine (Cert.LibPlainMatmul.matmul_zero_ix2 dot_S512x128_S128x1_S512x1_1_0_0_1_n_n none rfl rfl
    dOut_l0 dOut_l1 dOut_r0 dOut_r1 _ _ r u).trans ?_
  refine Finset.sum_congr rfl fun j _ => ?_
  refine congrArg (· * v (ix2 j u)) ?_
  show (maximumf (addf _ _) (broadcast S512x128 (Scalar.ofBits .f32 0x00000000#32)) : FVec Ideal S512x128 .f32) (ix2 r j) = hidden g w b r j
  rw [maximumf_apply, addf_apply, broadcast_apply,
    broadcastTo_1b_ab_apply (a := 512) (b := 128) b broadcasts_S1x128_S512x128 r j]
  unfold hidden
  refine congrArg₂ max (congrArg (· + b (ix2 (0 : Fin 1) j)) ?_) zero_word
  exact Cert.LibPlainMatmul.matmul_zero_ix2 dot_S512x192_S192x128_S512x128_1_0_0_1_n_n none rfl rfl
    dHid_l0 dHid_l1 dHid_r0 dHid_r1 (truncf .bf16 g bitsLt_bf16_f32) (truncf .bf16 w bitsLt_bf16_f32) r j

end Cert.KernelIdeal.Body

end
-- ==== Proof.LibPlainDot.lean ====
/-
  The host's plain matrix product, read at an entry.

  For a `dot_general` whose dimension numbers contract the left operand's columns against the right operand's
  rows, with no batch axis — `[M, K] × [K, N] → [M, N]` — the product on the host is, at the extended reals, the
  textbook sum: entry `(p, c)` is the sum over `k` of `lhs (p, k) · rhs (k, c)`. As for a kernel's product into a
  zero accumulator, the dimension numbers enter only through four coordinate facts about the dot's operand indices
  and the fact that exactly one axis, of extent `K`, is contracted; the lemma is general in the extents, the element
  types and the contraction precision.
-/
import Idealize.ShloMosaic.PureOps.Ideal.Laws
import Idealize.ShloMosaic.Lib.ValueIdx

noncomputable section

namespace Cert.LibPlainDot

open Idealize.ShloMosaic Idealize.ShloMosaic.ValueIdx
open scoped BigOperators

/-- Entry `(p, c)` of the host's `lhs · rhs` is `Σ k, lhs (p, k) · rhs (k, c)`: the dot's sum over its one-axis
    contraction index, re-indexed along the bijection of that index with `Fin K`, each operand index then identified
    by its two coordinates. -/
theorem dotGeneral_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (c : Fin N) :
    Host.dotGeneral D prec lhs rhs (ix2 p c) = ∑ k : Fin K, lhs (ix2 p k) * rhs (ix2 k c) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.RefOps.lean ====
/-
  The reference's building blocks as functions of their inputs, and what the dense ones hold at an entry.

  One graph-convolution layer of the reference is: project the node features (a matrix product with the layer's
  weights), gather the projected rows at the edges' source nodes, scale each by its edge's normalisation, add them up
  at the edges' target nodes, add the bias to every row and clamp below at zero. After two layers the node features
  are averaged per graph, the per-graph inputs are appended, and a two-layer perceptron gives one number per graph.
  Here each of those steps is named as a function of the arrays it reads, so that the gathers and scatter-adds are
  carried as they stand and only the dense steps are ever read at an entry:
  the product's entry (p, q) is Σ k, x (p, k) · w (k, q); the bias step's is max (h (p, q) + b q, 0); the perceptron's
  entry (r, 0) is (Σ j, max ((Σ k, g (r, k) · W (k, j)) + b j, 0) · V (j, 0)) + d 0.
-/
import proofs.«100806_j34437047779687_1_alg».proof.Proof.Gen.ReferenceIdeal.Read
import proofs.«100806_j34437047779687_1_alg».proof.Proof.LibPlainDot
import proofs.«100806_j34437047779687_1_alg».proof.Proof.LibBiasRow
import Idealize.ShloMosaic.Lib.ValueIdx
import Idealize.ShloMosaic.Lib.Pipeline.Value
import Idealize.ShloMosaic.PureOps.Ideal.Laws

noncomputable section

namespace Cert.RefOps

open Cert.ReferenceIdeal Cert.ReferenceIdeal.Gen Cert.ReferenceIdeal.Read Idealize.ShloMosaic Idealize.ShloMosaic.ValueIdx
open scoped BigOperators

/-! ## The dense steps -/

/-- Node features times a layer's weights. -/
def prod (x : FVec Ideal S100000x128 .f32) (w : FVec Ideal S128x128 .f32) : FVec Ideal S100000x128 .f32 :=
  Host.dotGeneral dot_S100000x128_S128x128_S100000x128_1_0_0_1_n_n none x w

theorem prod_apply (x : FVec Ideal S100000x128 .f32) (w : FVec Ideal S128x128 .f32) (p : Fin 100000) (q : Fin 128) :
    prod x w (ix2 p q) = ∑ k : Fin 128, x (ix2 p k) * w (ix2 k q) :=
  Cert.LibPlainDot.dotGeneral_ix2 dot_S100000x128_S128x128_S100000x128_1_0_0_1_n_n none rfl rfl
    lhs_main_v14_0 lhs_main_v14_1 rhs_main_v14_0 rhs_main_v14_1 x w p q

/-- The bias added to every row, then the clamp below at zero. -/
def biasRelu (h : FVec Ideal S100000x128 .f32) (b : FVec Ideal S128 .f32) : FVec Ideal S100000x128 .f32 :=
  maximumf (addf h (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

theorem biasRelu_apply (h : FVec Ideal S100000x128 .f32) (b : FVec Ideal S128 .f32) (p : Fin 100000) (q : Fin 128) :
    biasRelu h b (ix2 p q) = max (h (ix2 p q) + b (ix1 q)) 0 := by
  unfold biasRelu
  rw [maximumf_apply, addf_apply]
  refine congrArg₂ max (congrArg (h (ix2 p q) + ·) ?_) ?_
  · exact Cert.LibBiasRow.row_tile_apply b bcast_S128_S1x128_1 bcast_S1x128_S100000x128_0_1 p q
  · exact (Cert.LibBroadcastIn.scalar_apply bcast_S_S100000x128 _ (ix2 p q)).trans Ideal.ofBits_zero_f32

/-- The two-layer perceptron on the pooled features. -/
def mlp (g : FVec Ideal S512x192 .f32) (w3 : FVec Ideal S192x128 .f32) (b3 : FVec Ideal S128 .f32)
    (w4 : FVec Ideal S128x1 .f32) (b4 : FVec Ideal S1 .f32) : FVec Ideal S512x1 .f32 :=
  addf (Host.dotGeneral dot_S512x128_S128x1_S512x1_1_0_0_1_n_n none
      (maximumf (addf (Host.dotGeneral dot_S512x192_S192x128_S512x128_1_0_0_1_n_n none g w3)
          (broadcastInDim S512x128 ![0, 1] bcast_S1x128_S512x128_0_1 (broadcastInDim S1x128 ![1] bcast_S128_S1x128_1 b3)))
        (broadcastInDim S512x128 ![] bcast_S_S512x128 (constant (F := Ideal) S_ .f32 0x00000000#32))) w4)
    (broadcastInDim S512x1 ![0, 1] bcast_S1x1_S512x1_0_1 (broadcastInDim S1x1 ![1] bcast_S1_S1x1_1 b4))

/-- The perceptron's hidden layer at entry (r, j). -/
def hidden (g : FVec Ideal S512x192 .f32) (w3 : FVec Ideal S192x128 .f32) (b3 : FVec Ideal S128 .f32) (r : Fin 512) (j : Fin 128) : EReal :=
  max ((∑ k : Fin 192, g (ix2 r k) * w3 (ix2 k j)) + b3 (ix1 j)) 0

theorem mlp_apply (g : FVec Ideal S512x192 .f32) (w3 : FVec Ideal S192x128 .f32) (b3 : FVec Ideal S128 .f32)
    (w4 : FVec Ideal S128x1 .f32) (b4 : FVec Ideal S1 .f32) (r : Fin 512) (u : Fin 1) :
    mlp g w3 b3 w4 b4 (ix2 r u) = (∑ j : Fin 128, hidden g w3 b3 r j * w4 (ix2 j u)) + b4 (ix1 u) := by
  unfold mlp
  rw [addf_apply]
  refine congrArg₂ (· + ·) ?_ (Cert.LibBiasRow.row_tile_apply b4 bcast_S1_S1x1_1 bcast_S1x1_S512x1_0_1 r u)
  refine (Cert.LibPlainDot.dotGeneral_ix2 dot_S512x128_S128x1_S512x1_1_0_0_1_n_n none rfl rfl
    lhs_main_v114_0 lhs_main_v114_1 rhs_main_v114_0 rhs_main_v114_1 _ w4 r u).trans ?_
  refine Finset.sum_congr rfl fun j _ => congrArg (· * w4 (ix2 j u)) ?_
  rw [maximumf_apply, addf_apply]
  unfold hidden
  refine congrArg₂ max (congrArg₂ (· + ·) ?_ ?_) ?_
  · exact Cert.LibPlainDot.dotGeneral_ix2 dot_S512x192_S192x128_S512x128_1_0_0_1_n_n none rfl rfl
      lhs_main_v109_0 lhs_main_v109_1 rhs_main_v109_0 rhs_main_v109_1 g w3 r j
  · exact Cert.LibBiasRow.row_tile_apply b3 bcast_S128_S1x128_1 bcast_S1x128_S512x128_0_1 r j
  · exact (Cert.LibBroadcastIn.scalar_apply bcast_S_S512x128 _ (ix2 r j)).trans Ideal.ofBits_zero_f32

/-! ## The graph steps, carried whole -/

/-- A negative index counted from the end: `select (s < 0) (s + 100000) s`. -/
def wrap (s : IVec S1700000 32) : IVec S1700000 32 :=
  select (cmpi .slt s (broadcastInDim S1700000 ![] bcast_S_S1700000 (constantI S_ 32 0#32)))
    (addi s (broadcastInDim S1700000 ![] bcast_S_S1700000 (constantI S_ 32 100000#32))) s

/-- Each edge's normalisation: the inverse root degree at its source, times its weight, times that at its target. -/
def norm (dinv : FVec Ideal S100000 .f32) (s d : IVec S1700000 32) (ew : FVec Ideal S1700000 .f32) : FVec Ideal S1700000 .f32 :=
  mulf (mulf (Host.gather gather_S100000_S1700000x1_S1700000_n_0_n_n_0_1_1 dinv (broadcastInDim S1700000x1 ![0] bcast_S1700000_S1700000x1_0 (wrap s))) ew)
    (Host.gather gather_S100000_S1700000x1_S1700000_n_0_n_n_0_1_1 dinv (broadcastInDim S1700000x1 ![0] bcast_S1700000_S1700000x1_0 (wrap d)))

/-- The message passing of one layer: gather the projected rows at the sources, scale by the normalisation, add up at the targets. -/
def conv (xw : FVec Ideal S100000x128 .f32) (s d : IVec S1700000 32) (n : FVec Ideal S1700000 .f32) : FVec Ideal S100000x128 .f32 :=
  Host.scatterAdd scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 d)
    (mulf (Host.gather gather_S100000x128_S1700000x1_S1700000x128_1_0_n_n_0_1_1128 xw (broadcastInDim S1700000x1 ![0] bcast_S1700000_S1700000x1_0 (wrap s)))
      (broadcastInDim S1700000x128 ![0, 1] bcast_S1700000x1_S1700000x128_0_1 (broadcastInDim S1700000x1 ![0] bcast_S1700000_S1700000x1_0 n)))

/-- The mean of the node features per graph, with the per-graph inputs appended. -/
def pool (h : FVec Ideal S100000x128 .f32) (bt : IVec S100000 32) (u : FVec Ideal S512x64 .f32) : FVec Ideal S512x192 .f32 :=
  concatenate S512x192 1
    [⟨S512x128, Host.divf
        (Host.scatterAdd scatter_S512x128_S100000x1_S100000x128_1_0_0_1
          (broadcastInDim S512x128 ![] bcast_S_S512x128 (constant (F := Ideal) S_ .f32 0x00000000#32))
          (broadcastInDim S100000x1 ![0] bcast_S100000_S100000x1_0 bt) h)
        (broadcastInDim S512x128 ![0, 1] bcast_S512x1_S512x128_0_1 (broadcastInDim S512x1 ![0] bcast_S512_S512x1_0
          (maximumf
            (Host.scatterAdd scatter_S512_S100000x1_S100000_n_0_0_1
              (broadcastInDim S512 ![] bcast_S_S512 (constant (F := Ideal) S_ .f32 0x00000000#32))
              (broadcastInDim S100000x1 ![0] bcast_S100000_S100000x1_0 bt)
              (broadcastInDim S100000 ![] bcast_S_S100000 (constant (F := Ideal) S_ .f32 0x3F800000#32)))
            (broadcastInDim S512 ![] bcast_S_S512 (constant (F := Ideal) S_ .f32 0x3F800000#32)))))⟩,
     ⟨S512x64, u⟩] concatenates_S512x128_S512x64_S512x192_d1

end Cert.RefOps

end
-- ==== Proof.RegionProj.lean ====
/-
  The two projection launches: each leaves in its output array the whole matrix product of its two input arrays.

  The grid has 20 points; point t works on rows 5000 t … 5000 t + 4999 of the left operand and of the output, and
  on the whole weight matrix. A row of a matrix product reads only the same row of the left operand, so the block a
  point stores is exactly its 5000 rows of the whole product; the 20 blocks tile the 100000 rows.
-/
import proofs.«100806_j34437047779687_1_alg».proof.Proof.Gen.KernelIdeal.Frame
import proofs.«100806_j34437047779687_1_alg».proof.Proof.Payloads
import proofs.«100806_j34437047779687_1_alg».proof.Proof.RefOps
import Idealize.ShloMosaic.Lib.Pipeline.Value

noncomputable section

namespace Cert.KernelIdeal.Proj

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-! ## Launch 0: `main_v37` = `main_arg0` · `main_arg5` -/

/-- Over the 20 grid points: the row window and the output window sit at block (t, 0), the weight window at (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row window's block at point `t` is rows `5000 t … 5000 t + 4999` of its array. -/
theorem rows0 (c : Dev nD) (t : Fin cfg0.N) (x : S5000x128.Idx) (i : S100000x128.Idx)
    (h0 : (i 0).val = 5000 * t.val + (x 0).val) (h1 : (i 1).val = (x 1).val) :
    (iblk0 V c 0 t : Vec Ideal S5000x128 .f32) x = (V c main_arg0 : Vec Ideal S100000x128 .f32) i := by
  obtain ⟨e0, e1, -⟩ := idx0 t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * (x 0).val = (i 0).val; rw [e0, h0]; omega
  | ⟨1, _⟩ => show win0_0.index t (1 : Fin 2) * 128 + 1 * (x 1).val = (i 1).val; rw [e1, h1]; omega

/-- The weight window's block at every point is the whole weight matrix. -/
theorem weights0 (c : Dev nD) (t : Fin cfg0.N) (x : S128x128.Idx) :
    (iblk0 V c 1 t : Vec Ideal S128x128 .f32) x = (V c main_arg5 : Vec Ideal S128x128 .f32) x := by
  obtain ⟨-, -, e2, e3, -⟩ := idx0 t
  unfold iblk0
  rw [View.read_apply]
  show V c main_arg5 _ = V c main_arg5 _
  refine congrArg (V c main_arg5) (funext fun a => Fin.ext ?_)
  match a with
  | ⟨0, _⟩ => show win0_1.index t (0 : Fin 2) * 128 + 1 * (x 0).val = (x 0).val; rw [e2]; omega
  | ⟨1, _⟩ => show win0_1.index t (1 : Fin 2) * 128 + 1 * (x 1).val = (x 1).val; rw [e3]; omega

/-- Entry (r, q) of the output window's block at point `t` is entry (5000 t + r, q) of the output array. -/
theorem place0 (t : Fin cfg0.N) (r : Fin 5000) (q : Fin 128) (p : Fin 100000) (hp : p.val = 5000 * t.val + r.val) :
    (((cfg0.win 2).blk t).view.emb (ix2 r q) : S100000x128.Idx) = ix2 p q := by
  obtain ⟨-, -, -, -, e4, e5⟩ := idx0 t
  refine funext fun a => Fin.ext ?_
  match a with
  | ⟨0, _⟩ => show win0_2.index t (0 : Fin 2) * 5000 + 1 * r.val = p.val; rw [e4, hp]; omega
  | ⟨1, _⟩ => show win0_2.index t (1 : Fin 2) * 128 + 1 * q.val = q.val; rw [e5]; omega

/-- What point `t` stores is its block of the whole product: row 5000 t + r of the product only reads row 5000 t + r of
    the left operand, which is row r of the point's row block. -/
theorem stored0 (c : Dev nD) (t : Fin cfg0.N) (j : S5000x128.Idx) :
    k0_pay1 (iblk0 V c 0 t) (iblk0 V c 1 t) j
      = Cert.RefOps.prod (V c main_arg0) (V c main_arg5) (((cfg0.win 2).blk t).view.emb j) := by
  obtain ⟨r, q, rfl⟩ : ∃ (r : Fin 5000) (q : Fin 128), j = ix2 r q := ⟨j 0, j 1, eq_ix2 j⟩
  have hN : cfg0.N = 20 := N_0
  have ht : t.val < 20 := hN ▸ t.isLt
  have hb : 5000 * t.val + r.val < 100000 := by have := r.isLt; omega
  rw [place0 t r q ⟨5000 * t.val + r.val, hb⟩ rfl, Cert.RefOps.prod_apply]
  refine (Cert.KernelIdeal.Body.proj1_apply _ _ r q).trans (Finset.sum_congr rfl fun k _ => ?_)
  rw [rows0 V c t (ix2 r k) (ix2 ⟨5000 * t.val + r.val, hb⟩ k) rfl rfl, weights0 V c t (ix2 k q)]

/-- What point `t` writes back is block `t` of the whole product. -/
theorem flushed0 (c : Dev nD) (t : Fin cfg0.N) :
    (dat0 V c).flushed 2 t
      = ((cfg0.win 2).blk t).view.read (Elt Ideal) (Cert.RefOps.prod (V c main_arg0) (V c main_arg5)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  rw [View.read_apply]
  exact stored0 V c t j

/-- Every row of the output array is in the block of the point that owns it: point ⌊row / 5000⌋. -/
theorem cover0 (i : S100000x128.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 128 := (i 1).isLt
  let t : Fin cfg0.N := ⟨(i 0).val / 5000, by rw [hN]; omega⟩
  obtain ⟨-, -, -, -, e4, e5⟩ := idx0 t
  have e4' : win0_2.index t (0 : Fin 2) = (i 0).val / 5000 := e4
  refine ⟨t, flush0_2 t, ?_⟩
  show i ∈ ((View.whole main_v37).slice (win0_2.rect t)).set
  rw [View.set_slice_whole, Rect.mem_set_unit]
  intro a
  match a with
  | ⟨0, _⟩ =>
    show win0_2.index t (0 : Fin 2) * 5000 ≤ (i 0).val ∧ (i 0).val < win0_2.index t (0 : Fin 2) * 5000 + 5000
    rw [e4']; omega
  | ⟨1, _⟩ =>
    show win0_2.index t (1 : Fin 2) * 128 ≤ (i 1).val ∧ (i 1).val < win0_2.index t (1 : Fin 2) * 128 + 128
    rw [e5]; omega

/-- After the launch the output array holds the whole product of the two arrays the launch found. -/
theorem whole0 (c : Dev nD) :
    (dat0 V c).arrAt 2 cfg0.N = Cert.RefOps.prod (V c main_arg0) (V c main_arg5) :=
  (dat0 V c).arrAt_eq_of_cover 2 _ (fun t _ => flushed0 V c t) cover0

/-! ## Launch 2: `main_v53` = `main_v52` · `main_arg7` -/

/-- Over the 20 grid points: the row window and the output window sit at block (t, 0), the weight window at (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The row window's block at point `t` is rows `5000 t … 5000 t + 4999` of its array. -/
theorem rows2 (c : Dev nD) (t : Fin cfg2.N) (x : S5000x128.Idx) (i : S100000x128.Idx)
    (h0 : (i 0).val = 5000 * t.val + (x 0).val) (h1 : (i 1).val = (x 1).val) :
    (iblk2 V c 0 t : Vec Ideal S5000x128 .f32) x = (V c main_v52 : Vec Ideal S100000x128 .f32) i := by
  obtain ⟨e0, e1, -⟩ := idx2 t
  unfold iblk2
  rw [View.read_apply]
  show V c main_v52 _ = V c main_v52 _
  refine congrArg (V c main_v52) (funext fun a => Fin.ext ?_)
  match a with
  | ⟨0, _⟩ => show win2_0.index t (0 : Fin 2) * 5000 + 1 * (x 0).val = (i 0).val; rw [e0, h0]; omega
  | ⟨1, _⟩ => show win2_0.index t (1 : Fin 2) * 128 + 1 * (x 1).val = (i 1).val; rw [e1, h1]; omega

/-- The weight window's block at every point is the whole weight matrix. -/
theorem weights2 (c : Dev nD) (t : Fin cfg2.N) (x : S128x128.Idx) :
    (iblk2 V c 1 t : Vec Ideal S128x128 .f32) x = (V c main_arg7 : Vec Ideal S128x128 .f32) x := by
  obtain ⟨-, -, e2, e3, -⟩ := idx2 t
  unfold iblk2
  rw [View.read_apply]
  show V c main_arg7 _ = V c main_arg7 _
  refine congrArg (V c main_arg7) (funext fun a => Fin.ext ?_)
  match a with
  | ⟨0, _⟩ => show win2_1.index t (0 : Fin 2) * 128 + 1 * (x 0).val = (x 0).val; rw [e2]; omega
  | ⟨1, _⟩ => show win2_1.index t (1 : Fin 2) * 128 + 1 * (x 1).val = (x 1).val; rw [e3]; omega

/-- Entry (r, q) of the output window's block at point `t` is entry (5000 t + r, q) of the output array. -/
theorem place2 (t : Fin cfg2.N) (r : Fin 5000) (q : Fin 128) (p : Fin 100000) (hp : p.val = 5000 * t.val + r.val) :
    (((cfg2.win 2).blk t).view.emb (ix2 r q) : S100000x128.Idx) = ix2 p q := by
  obtain ⟨-, -, -, -, e4, e5⟩ := idx2 t
  refine funext fun a => Fin.ext ?_
  match a with
  | ⟨0, _⟩ => show win2_2.index t (0 : Fin 2) * 5000 + 1 * r.val = p.val; rw [e4, hp]; omega
  | ⟨1, _⟩ => show win2_2.index t (1 : Fin 2) * 128 + 1 * q.val = q.val; rw [e5]; omega

/-- What point `t` stores is its block of the whole product: row 5000 t + r of the product only reads row 5000 t + r of
    the left operand, which is row r of the point's row block. -/
theorem stored2 (c : Dev nD) (t : Fin cfg2.N) (j : S5000x128.Idx) :
    k2_pay1 (iblk2 V c 0 t) (iblk2 V c 1 t) j
      = Cert.RefOps.prod (V c main_v52) (V c main_arg7) (((cfg2.win 2).blk t).view.emb j) := by
  obtain ⟨r, q, rfl⟩ : ∃ (r : Fin 5000) (q : Fin 128), j = ix2 r q := ⟨j 0, j 1, eq_ix2 j⟩
  have hN : cfg2.N = 20 := N_2
  have ht : t.val < 20 := hN ▸ t.isLt
  have hb : 5000 * t.val + r.val < 100000 := by have := r.isLt; omega
  rw [place2 t r q ⟨5000 * t.val + r.val, hb⟩ rfl, Cert.RefOps.prod_apply]
  refine (Cert.KernelIdeal.Body.proj2_apply _ _ r q).trans (Finset.sum_congr rfl fun k _ => ?_)
  rw [rows2 V c t (ix2 r k) (ix2 ⟨5000 * t.val + r.val, hb⟩ k) rfl rfl, weights2 V c t (ix2 k q)]

/-- What point `t` writes back is block `t` of the whole product. -/
theorem flushed2 (c : Dev nD) (t : Fin cfg2.N) :
    (dat2 V c).flushed 2 t
      = ((cfg2.win 2).blk t).view.read (Elt Ideal) (Cert.RefOps.prod (V c main_v52) (V c main_arg7)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  funext j
  rw [View.read_apply]
  exact stored2 V c t j

/-- Every row of the output array is in the block of the point that owns it: point ⌊row / 5000⌋. -/
theorem cover2 (i : S100000x128.Idx) :
    ∃ t : Fin cfg2.N, (cfg2.win 2).flush t = true ∧ i ∈ ((cfg2.win 2).blk t).view.set := by
  have hN : cfg2.N = 20 := N_2
  have hi0 : (i 0).val < 100000 := (i 0).isLt
  have hi1 : (i 1).val < 128 := (i 1).isLt
  let t : Fin cfg2.N := ⟨(i 0).val / 5000, by rw [hN]; omega⟩
  obtain ⟨-, -, -, -, e4, e5⟩ := idx2 t
  have e4' : win2_2.index t (0 : Fin 2) = (i 0).val / 5000 := e4
  refine ⟨t, flush2_2 t, ?_⟩
  show i ∈ ((View.whole main_v53).slice (win2_2.rect t)).set
  rw [View.set_slice_whole, Rect.mem_set_unit]
  intro a
  match a with
  | ⟨0, _⟩ =>
    show win2_2.index t (0 : Fin 2) * 5000 ≤ (i 0).val ∧ (i 0).val < win2_2.index t (0 : Fin 2) * 5000 + 5000
    rw [e4']; omega
  | ⟨1, _⟩ =>
    show win2_2.index t (1 : Fin 2) * 128 ≤ (i 1).val ∧ (i 1).val < win2_2.index t (1 : Fin 2) * 128 + 128
    rw [e5]; omega

/-- After the launch the output array holds the whole product of the two arrays the launch found. -/
theorem whole2 (c : Dev nD) :
    (dat2 V c).arrAt 2 cfg2.N = Cert.RefOps.prod (V c main_v52) (V c main_arg7) :=
  (dat2 V c).arrAt_eq_of_cover 2 _ (fun t _ => flushed2 V c t) cover2

end Cert.KernelIdeal.Proj

end
-- ==== Proof.RegionBias.lean ====
/-
  The two bias launches: each leaves in its output array max (input + bias, 0), the bias added to every row.

  The grid has 20 points; point t works on rows 5000 t … 5000 t + 4999 of the input and of the output, and on the
  whole one-row bias array. The step is entry by entry, so the block a point stores is exactly its 5000 rows of the
  whole result; the 20 blocks tile the 100000 rows.
-/
import proofs.«100806_j34437047779687_1_alg».proof.Proof.Gen.KernelIdeal.Frame
import proofs.«100806_j34437047779687_1_alg».proof.Proof.Payloads
import proofs.«100806_j34437047779687_1_alg».proof.Proof.RefOps
import Idealize.ShloMosaic.Lib.Pipeline.Value

noncomputable section

namespace Cert.KernelIdeal.Bias

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-! ## Launch 1: `main_v52` = max (`main_v50` + bias row, 0) -/

/-- Over the 20 grid points: the row window and the output window sit at block (t, 0), the bias window at (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The row window's block at point `t` is rows `5000 t … 5000 t + 4999` of its array. -/
theorem rows1 (c : Dev nD) (t : Fin cfg1.N) (x : S5000x128.Idx) (i : S100000x128.Idx)
    (h0 : (i 0).val = 5000 * t.val + (x 0).val) (h1 : (i 1).val = (x 1).val) :
    (iblk1 V c 0 t : Vec Ideal S5000x128 .f32) x = (V c main_v50 : Vec Ideal S100000x128 .f32) i := by
  obtain ⟨e0, e1, -⟩ := idx1 t
  unfold iblk1
  rw [View.read_apply]
  show V c main_v50 _ = V c main_v50 _
  refine congrArg (V c main_v50) (funext fun a => Fin.ext ?_)
  match a with
  | ⟨0, _⟩ => show win1_0.index t (0 : Fin 2) * 5000 + 1 * (x 0).val = (i 0).val; rw [e0, h0]; omega
  | ⟨1, _⟩ => show win1_0.index t (1 : Fin 2) * 128 + 1 * (x 1).val = (i 1).val; rw [e1, h1]; omega

/-- The bias window's block at every point is the whole one-row bias array. -/
theorem biasrow1 (c : Dev nD) (t : Fin cfg1.N) (x : S1x128.Idx) :
    (iblk1 V c 1 t : Vec Ideal S1x128 .f32) x = (V c main_v51 : Vec Ideal S1x128 .f32) x := by
  obtain ⟨-, -, e2, e3, -⟩ := idx1 t
  unfold iblk1
  rw [View.read_apply]
  show V c main_v51 _ = V c main_v51 _
  refine congrArg (V c main_v51) (funext fun a => Fin.ext ?_)
  match a with
  | ⟨0, _⟩ => show win1_1.index t (0 : Fin 2) * 1 + 1 * (x 0).val = (x 0).val; rw [e2]; omega
  | ⟨1, _⟩ => show win1_1.index t (1 : Fin 2) * 128 + 1 * (x 1).val = (x 1).val; rw [e3]; omega

/-- Entry (r, q) of the output window's block at point `t` is entry (5000 t + r, q) of the output array. -/
theorem place1 (t : Fin cfg1.N) (r : Fin 5000) (q : Fin 128) (p : Fin 100000) (hp : p.val = 5000 * t.val + r.val) :
    (((cfg1.win 2).blk t).view.emb (ix2 r q) : S100000x128.Idx) = ix2 p q := by
  obtain ⟨-, -, -, -, e4, e5⟩ := idx1 t
  refine funext fun a => Fin.ext ?_
  match a with
  | ⟨0, _⟩ => show win1_2.index t (0 : Fin 2) * 5000 + 1 * r.val = p.val; rw [e4, hp]; omega
  | ⟨1, _⟩ => show win1_2.index t (1 : Fin 2) * 128 + 1 * q.val = q.val; rw [e5]; omega

/-- What point `t` stores is its block of the whole array `max (rows + bias, 0)`: the step is entry by entry, and the
    one-row bias array holds the bias vector `b`. -/
theorem stored1 (c : Dev nD) (b : FVec Ideal Cert.ReferenceIdeal.S128 .f32)
    (hb : ∀ q : Fin 128, (V c main_v51 : Vec Ideal S1x128 .f32) (ix2 (0 : Fin 1) q) = b (ix1 q))
    (t : Fin cfg1.N) (j : S5000x128.Idx) :
    k1_pay1 (iblk1 V c 0 t) (iblk1 V c 1 t) j
      = Cert.RefOps.biasRelu (V c main_v50) b (((cfg1.win 2).blk t).view.emb j) := by
  obtain ⟨r, q, rfl⟩ : ∃ (r : Fin 5000) (q : Fin 128), j = ix2 r q := ⟨j 0, j 1, eq_ix2 j⟩
  have hN : cfg1.N = 20 := N_1
  have ht : t.val < 20 := hN ▸ t.isLt
  have hlt : 5000 * t.val + r.val < 100000 := by have := r.isLt; omega
  rw [place1 t r q ⟨5000 * t.val + r.val, hlt⟩ rfl, Cert.RefOps.biasRelu_apply]
  refine (Cert.KernelIdeal.Body.bias1_apply _ _ r q).trans ?_
  rw [rows1 V c t (ix2 r q) (ix2 ⟨5000 * t.val + r.val, hlt⟩ q) rfl rfl, biasrow1 V c t (ix2 (0 : Fin 1) q), hb q]

/-- What point `t` writes back is block `t` of that whole array. -/
theorem flushed1 (c : Dev nD) (b : FVec Ideal Cert.ReferenceIdeal.S128 .f32)
    (hb : ∀ q : Fin 128, (V c main_v51 : Vec Ideal S1x128 .f32) (ix2 (0 : Fin 1) q) = b (ix1 q)) (t : Fin cfg1.N) :
    (dat1 V c).flushed 2 t
      = ((cfg1.win 2).blk t).view.read (Elt Ideal) (Cert.RefOps.biasRelu (V c main_v50) b) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  funext j
  rw [View.read_apply]
  exact stored1 V c b hb t j

/-- Every row of the output array is in the block of the point that owns it: point ⌊row / 5000⌋. -/
theorem cover1 (i : S100000x128.Idx) :
    ∃ t : Fin cfg1.N, (cfg1.win 2).flush t = true ∧ i ∈ ((cfg1.win 2).blk t).view.set := by
  have hN : cfg1.N = 20 := N_1
  have hi0 : (i 0).val < 100000 := (i 0).isLt
  have hi1 : (i 1).val < 128 := (i 1).isLt
  let t : Fin cfg1.N := ⟨(i 0).val / 5000, by rw [hN]; omega⟩
  obtain ⟨-, -, -, -, e4, e5⟩ := idx1 t
  have e4' : win1_2.index t (0 : Fin 2) = (i 0).val / 5000 := e4
  refine ⟨t, flush1_2 t, ?_⟩
  show i ∈ ((View.whole main_v52).slice (win1_2.rect t)).set
  rw [View.set_slice_whole, Rect.mem_set_unit]
  intro a
  match a with
  | ⟨0, _⟩ =>
    show win1_2.index t (0 : Fin 2) * 5000 ≤ (i 0).val ∧ (i 0).val < win1_2.index t (0 : Fin 2) * 5000 + 5000
    rw [e4']; omega
  | ⟨1, _⟩ =>
    show win1_2.index t (1 : Fin 2) * 128 ≤ (i 1).val ∧ (i 1).val < win1_2.index t (1 : Fin 2) * 128 + 128
    rw [e5]; omega

/-- After the launch the output array holds `max (rows + bias, 0)` of the arrays the launch found. -/
theorem whole1 (c : Dev nD) (b : FVec Ideal Cert.ReferenceIdeal.S128 .f32)
    (hb : ∀ q : Fin 128, (V c main_v51 : Vec Ideal S1x128 .f32) (ix2 (0 : Fin 1) q) = b (ix1 q)) :
    (dat1 V c).arrAt 2 cfg1.N = Cert.RefOps.biasRelu (V c main_v50) b :=
  (dat1 V c).arrAt_eq_of_cover 2 _ (fun t _ => flushed1 V c b hb t) cover1

/-! ## Launch 3: `main_v68` = max (`main_v66` + bias row, 0) -/

/-- Over the 20 grid points: the row window and the output window sit at block (t, 0), the bias window at (0, 0). -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The row window's block at point `t` is rows `5000 t … 5000 t + 4999` of its array. -/
theorem rows3 (c : Dev nD) (t : Fin cfg3.N) (x : S5000x128.Idx) (i : S100000x128.Idx)
    (h0 : (i 0).val = 5000 * t.val + (x 0).val) (h1 : (i 1).val = (x 1).val) :
    (iblk3 V c 0 t : Vec Ideal S5000x128 .f32) x = (V c main_v66 : Vec Ideal S100000x128 .f32) i := by
  obtain ⟨e0, e1, -⟩ := idx3 t
  unfold iblk3
  rw [View.read_apply]
  show V c main_v66 _ = V c main_v66 _
  refine congrArg (V c main_v66) (funext fun a => Fin.ext ?_)
  match a with
  | ⟨0, _⟩ => show win3_0.index t (0 : Fin 2) * 5000 + 1 * (x 0).val = (i 0).val; rw [e0, h0]; omega
  | ⟨1, _⟩ => show win3_0.index t (1 : Fin 2) * 128 + 1 * (x 1).val = (i 1).val; rw [e1, h1]; omega

/-- The bias window's block at every point is the whole one-row bias array. -/
theorem biasrow3 (c : Dev nD) (t : Fin cfg3.N) (x : S1x128.Idx) :
    (iblk3 V c 1 t : Vec Ideal S1x128 .f32) x = (V c main_v67 : Vec Ideal S1x128 .f32) x := by
  obtain ⟨-, -, e2, e3, -⟩ := idx3 t
  unfold iblk3
  rw [View.read_apply]
  show V c main_v67 _ = V c main_v67 _
  refine congrArg (V c main_v67) (funext fun a => Fin.ext ?_)
  match a with
  | ⟨0, _⟩ => show win3_1.index t (0 : Fin 2) * 1 + 1 * (x 0).val = (x 0).val; rw [e2]; omega
  | ⟨1, _⟩ => show win3_1.index t (1 : Fin 2) * 128 + 1 * (x 1).val = (x 1).val; rw [e3]; omega

/-- Entry (r, q) of the output window's block at point `t` is entry (5000 t + r, q) of the output array. -/
theorem place3 (t : Fin cfg3.N) (r : Fin 5000) (q : Fin 128) (p : Fin 100000) (hp : p.val = 5000 * t.val + r.val) :
    (((cfg3.win 2).blk t).view.emb (ix2 r q) : S100000x128.Idx) = ix2 p q := by
  obtain ⟨-, -, -, -, e4, e5⟩ := idx3 t
  refine funext fun a => Fin.ext ?_
  match a with
  | ⟨0, _⟩ => show win3_2.index t (0 : Fin 2) * 5000 + 1 * r.val = p.val; rw [e4, hp]; omega
  | ⟨1, _⟩ => show win3_2.index t (1 : Fin 2) * 128 + 1 * q.val = q.val; rw [e5]; omega

/-- What point `t` stores is its block of the whole array `max (rows + bias, 0)`: the step is entry by entry, and the
    one-row bias array holds the bias vector `b`. -/
theorem stored3 (c : Dev nD) (b : FVec Ideal Cert.ReferenceIdeal.S128 .f32)
    (hb : ∀ q : Fin 128, (V c main_v67 : Vec Ideal S1x128 .f32) (ix2 (0 : Fin 1) q) = b (ix1 q))
    (t : Fin cfg3.N) (j : S5000x128.Idx) :
    k3_pay1 (iblk3 V c 0 t) (iblk3 V c 1 t) j
      = Cert.RefOps.biasRelu (V c main_v66) b (((cfg3.win 2).blk t).view.emb j) := by
  obtain ⟨r, q, rfl⟩ : ∃ (r : Fin 5000) (q : Fin 128), j = ix2 r q := ⟨j 0, j 1, eq_ix2 j⟩
  have hN : cfg3.N = 20 := N_3
  have ht : t.val < 20 := hN ▸ t.isLt
  have hlt : 5000 * t.val + r.val < 100000 := by have := r.isLt; omega
  rw [place3 t r q ⟨5000 * t.val + r.val, hlt⟩ rfl, Cert.RefOps.biasRelu_apply]
  refine (Cert.KernelIdeal.Body.bias2_apply _ _ r q).trans ?_
  rw [rows3 V c t (ix2 r q) (ix2 ⟨5000 * t.val + r.val, hlt⟩ q) rfl rfl, biasrow3 V c t (ix2 (0 : Fin 1) q), hb q]

/-- What point `t` writes back is block `t` of that whole array. -/
theorem flushed3 (c : Dev nD) (b : FVec Ideal Cert.ReferenceIdeal.S128 .f32)
    (hb : ∀ q : Fin 128, (V c main_v67 : Vec Ideal S1x128 .f32) (ix2 (0 : Fin 1) q) = b (ix1 q)) (t : Fin cfg3.N) :
    (dat3 V c).flushed 2 t
      = ((cfg3.win 2).blk t).view.read (Elt Ideal) (Cert.RefOps.biasRelu (V c main_v66) b) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  funext j
  rw [View.read_apply]
  exact stored3 V c b hb t j

/-- Every row of the output array is in the block of the point that owns it: point ⌊row / 5000⌋. -/
theorem cover3 (i : S100000x128.Idx) :
    ∃ t : Fin cfg3.N, (cfg3.win 2).flush t = true ∧ i ∈ ((cfg3.win 2).blk t).view.set := by
  have hN : cfg3.N = 20 := N_3
  have hi0 : (i 0).val < 100000 := (i 0).isLt
  have hi1 : (i 1).val < 128 := (i 1).isLt
  let t : Fin cfg3.N := ⟨(i 0).val / 5000, by rw [hN]; omega⟩
  obtain ⟨-, -, -, -, e4, e5⟩ := idx3 t
  have e4' : win3_2.index t (0 : Fin 2) = (i 0).val / 5000 := e4
  refine ⟨t, flush3_2 t, ?_⟩
  show i ∈ ((View.whole main_v68).slice (win3_2.rect t)).set
  rw [View.set_slice_whole, Rect.mem_set_unit]
  intro a
  match a with
  | ⟨0, _⟩ =>
    show win3_2.index t (0 : Fin 2) * 5000 ≤ (i 0).val ∧ (i 0).val < win3_2.index t (0 : Fin 2) * 5000 + 5000
    rw [e4']; omega
  | ⟨1, _⟩ =>
    show win3_2.index t (1 : Fin 2) * 128 ≤ (i 1).val ∧ (i 1).val < win3_2.index t (1 : Fin 2) * 128 + 128
    rw [e5]; omega

/-- After the launch the output array holds `max (rows + bias, 0)` of the arrays the launch found. -/
theorem whole3 (c : Dev nD) (b : FVec Ideal Cert.ReferenceIdeal.S128 .f32)
    (hb : ∀ q : Fin 128, (V c main_v67 : Vec Ideal S1x128 .f32) (ix2 (0 : Fin 1) q) = b (ix1 q)) :
    (dat3 V c).arrAt 2 cfg3.N = Cert.RefOps.biasRelu (V c main_v66) b :=
  (dat3 V c).arrAt_eq_of_cover 2 _ (fun t _ => flushed3 V c b hb t) cover3

end Cert.KernelIdeal.Bias

end
-- ==== Proof.RegionPool.lean ====
/-
  The pooled launch: it leaves in its output column the two-layer perceptron of the pooled features.

  The grid has one point and every window's block is its whole array, so what the point stores is the whole result:
  entry (r, 0) is (Σ j, max ((Σ k, features (r, k) · W (k, j)) + b j, 0) · V (j, 0)) + d, the two bias arrays holding the
  bias vector b (as one row) and the scalar bias d (as a 1 × 1 array).
-/
import proofs.«100806_j34437047779687_1_alg».proof.Proof.Gen.KernelIdeal.Frame
import proofs.«100806_j34437047779687_1_alg».proof.Proof.Payloads
import proofs.«100806_j34437047779687_1_alg».proof.Proof.RefOps
import Idealize.ShloMosaic.Lib.Pipeline.Value

noncomputable section

namespace Cert.KernelIdeal.Pooled

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- At the one grid point every window sits at block (0, 0). -/
theorem idx4 : ∀ (t : Fin cfg4.N) (a : Fin 2), win4_0.index t a = 0 ∧ win4_1.index t a = 0 ∧ win4_2.index t a = 0
    ∧ win4_3.index t a = 0 ∧ win4_4.index t a = 0 ∧ win4_5.index t a = 0 :=
  (by decide +kernel : ∀ (t : Fin grid4.N) (a : Fin 2), _)

/-- Window 0's one block is its whole array `main_v81`. -/
theorem in0 (c : Dev nD) (t : Fin cfg4.N) (x : S512x192.Idx) :
    (iblk4 V c 0 t : Vec Ideal S512x192 .f32) x = (V c main_v81 : Vec Ideal S512x192 .f32) x := by
  have e0 := (idx4 t 0).1
  have e1 := (idx4 t 1).1
  unfold iblk4
  rw [View.read_apply]
  show V c main_v81 _ = V c main_v81 _
  refine congrArg (V c main_v81) (funext fun a => Fin.ext ?_)
  match a with
  | ⟨0, _⟩ => show win4_0.index t (0 : Fin 2) * 512 + 1 * (x 0).val = (x 0).val; rw [e0]; omega
  | ⟨1, _⟩ => show win4_0.index t (1 : Fin 2) * 192 + 1 * (x 1).val = (x 1).val; rw [e1]; omega

/-- Window 1's one block is its whole array `main_arg9`. -/
theorem in1 (c : Dev nD) (t : Fin cfg4.N) (x : S192x128.Idx) :
    (iblk4 V c 1 t : Vec Ideal S192x128 .f32) x = (V c main_arg9 : Vec Ideal S192x128 .f32) x := by
  have e0 := (idx4 t 0).2.1
  have e1 := (idx4 t 1).2.1
  unfold iblk4
  rw [View.read_apply]
  show V c main_arg9 _ = V c main_arg9 _
  refine congrArg (V c main_arg9) (funext fun a => Fin.ext ?_)
  match a with
  | ⟨0, _⟩ => show win4_1.index t (0 : Fin 2) * 192 + 1 * (x 0).val = (x 0).val; rw [e0]; omega
  | ⟨1, _⟩ => show win4_1.index t (1 : Fin 2) * 128 + 1 * (x 1).val = (x 1).val; rw [e1]; omega

/-- Window 2's one block is its whole array `main_v82`. -/
theorem in2 (c : Dev nD) (t : Fin cfg4.N) (x : S1x128.Idx) :
    (iblk4 V c 2 t : Vec Ideal S1x128 .f32) x = (V c main_v82 : Vec Ideal S1x128 .f32) x := by
  have e0 := (idx4 t 0).2.2.1
  have e1 := (idx4 t 1).2.2.1
  unfold iblk4
  rw [View.read_apply]
  show V c main_v82 _ = V c main_v82 _
  refine congrArg (V c main_v82) (funext fun a => Fin.ext ?_)
  match a with
  | ⟨0, _⟩ => show win4_2.index t (0 : Fin 2) * 1 + 1 * (x 0).val = (x 0).val; rw [e0]; omega
  | ⟨1, _⟩ => show win4_2.index t (1 : Fin 2) * 128 + 1 * (x 1).val = (x 1).val; rw [e1]; omega

/-- Window 3's one block is its whole array `main_arg11`. -/
theorem in3 (c : Dev nD) (t : Fin cfg4.N) (x : S128x1.Idx) :
    (iblk4 V c 3 t : Vec Ideal S128x1 .f32) x = (V c main_arg11 : Vec Ideal S128x1 .f32) x := by
  have e0 := (idx4 t 0).2.2.2.1
  have e1 := (idx4 t 1).2.2.2.1
  unfold iblk4
  rw [View.read_apply]
  show V c main_arg11 _ = V c main_arg11 _
  refine congrArg (V c main_arg11) (funext fun a => Fin.ext ?_)
  match a with
  | ⟨0, _⟩ => show win4_3.index t (0 : Fin 2) * 128 + 1 * (x 0).val = (x 0).val; rw [e0]; omega
  | ⟨1, _⟩ => show win4_3.index t (1 : Fin 2) * 1 + 1 * (x 1).val = (x 1).val; rw [e1]; omega

/-- Window 4's one block is its whole array `main_v83`. -/
theorem in4 (c : Dev nD) (t : Fin cfg4.N) (x : S1x1.Idx) :
    (iblk4 V c 4 t : Vec Ideal S1x1 .f32) x = (V c main_v83 : Vec Ideal S1x1 .f32) x := by
  have e0 := (idx4 t 0).2.2.2.2.1
  have e1 := (idx4 t 1).2.2.2.2.1
  unfold iblk4
  rw [View.read_apply]
  show V c main_v83 _ = V c main_v83 _
  refine congrArg (V c main_v83) (funext fun a => Fin.ext ?_)
  match a with
  | ⟨0, _⟩ => show win4_4.index t (0 : Fin 2) * 1 + 1 * (x 0).val = (x 0).val; rw [e0]; omega
  | ⟨1, _⟩ => show win4_4.index t (1 : Fin 2) * 1 + 1 * (x 1).val = (x 1).val; rw [e1]; omega

/-- The output window's one block is its whole array. -/
theorem place4 (t : Fin cfg4.N) (r : Fin 512) (u : Fin 1) :
    (((cfg4.win 5).blk t).view.emb (ix2 r u) : S512x1.Idx) = ix2 r u := by
  have e0 := (idx4 t 0).2.2.2.2.2
  have e1 := (idx4 t 1).2.2.2.2.2
  refine funext fun a => Fin.ext ?_
  match a with
  | ⟨0, _⟩ => show win4_5.index t (0 : Fin 2) * 512 + 1 * r.val = r.val; rw [e0]; omega
  | ⟨1, _⟩ => show win4_5.index t (1 : Fin 2) * 1 + 1 * u.val = u.val; rw [e1]; omega

/-- What the point stores is the whole perceptron output of the arrays the launch found. -/
theorem stored4 (c : Dev nD) (b3 : FVec Ideal Cert.ReferenceIdeal.S128 .f32) (b4 : FVec Ideal Cert.ReferenceIdeal.S1 .f32)
    (h3 : ∀ j : Fin 128, (V c main_v82 : Vec Ideal S1x128 .f32) (ix2 (0 : Fin 1) j) = b3 (ix1 j))
    (h4 : ∀ u : Fin 1, (V c main_v83 : Vec Ideal S1x1 .f32) (ix2 (0 : Fin 1) u) = b4 (ix1 u))
    (t : Fin cfg4.N) (j : S512x1.Idx) :
    k4_pay1 (iblk4 V c 0 t) (iblk4 V c 1 t) (iblk4 V c 2 t) (iblk4 V c 3 t) (iblk4 V c 4 t) j
      = Cert.RefOps.mlp (V c main_v81) (V c main_arg9) b3 (V c main_arg11) b4 (((cfg4.win 5).blk t).view.emb j) := by
  obtain ⟨r, u, rfl⟩ : ∃ (r : Fin 512) (u : Fin 1), j = ix2 r u := ⟨j 0, j 1, eq_ix2 j⟩
  rw [place4 t r u, Cert.RefOps.mlp_apply]
  refine (Cert.KernelIdeal.Body.pooled_apply _ _ _ _ _ r u).trans ?_
  refine congrArg₂ (· + ·) (Finset.sum_congr rfl fun j _ => congrArg₂ (· * ·) ?_ (in3 V c t (ix2 j u)))
    ((in4 V c t (ix2 (0 : Fin 1) u)).trans (h4 u))
  unfold Cert.KernelIdeal.Body.hidden Cert.RefOps.hidden
  refine congrArg (max · 0) (congrArg₂ (· + ·) (Finset.sum_congr rfl fun k _ => congrArg₂ (· * ·) (in0 V c t (ix2 r k)) (in1 V c t (ix2 k j)))
    ((in2 V c t (ix2 (0 : Fin 1) j)).trans (h3 j)))

/-- What the point writes back is that whole array, read through the output window's one block. -/
theorem flushed4 (c : Dev nD) (b3 : FVec Ideal Cert.ReferenceIdeal.S128 .f32) (b4 : FVec Ideal Cert.ReferenceIdeal.S1 .f32)
    (h3 : ∀ j : Fin 128, (V c main_v82 : Vec Ideal S1x128 .f32) (ix2 (0 : Fin 1) j) = b3 (ix1 j))
    (h4 : ∀ u : Fin 1, (V c main_v83 : Vec Ideal S1x1 .f32) (ix2 (0 : Fin 1) u) = b4 (ix1 u)) (t : Fin cfg4.N) :
    (dat4 V c).flushed 5 t
      = ((cfg4.win 5).blk t).view.read (Elt Ideal) (Cert.RefOps.mlp (V c main_v81) (V c main_arg9) b3 (V c main_arg11) b4) := by
  show (cfg4.win 5).cut (grid4.coords t) ((dat4 V c).after 5 t) = _
  rw [after4_5]
  unfold out4_5
  rw [View.canon_unit_zero hz]
  simp only [View.ld_unit_zero (S := S512x192) hz, View.ld_unit_zero (S := S192x128) hz, View.ld_unit_zero (S := S1x128) hz,
    View.ld_unit_zero (S := S128x1) hz, View.ld_unit_zero (S := S1x1) hz]
  funext j
  rw [View.read_apply]
  exact stored4 V c b3 b4 h3 h4 t j

/-- The one block covers the whole output column. -/
theorem cover4 (i : S512x1.Idx) :
    ∃ t : Fin cfg4.N, (cfg4.win 5).flush t = true ∧ i ∈ ((cfg4.win 5).blk t).view.set := by
  have hi0 : (i 0).val < 512 := (i 0).isLt
  have hi1 : (i 1).val < 1 := (i 1).isLt
  have e0 := (idx4 t4_0 0).2.2.2.2.2
  have e1 := (idx4 t4_0 1).2.2.2.2.2
  refine ⟨t4_0, flush4_5 t4_0, ?_⟩
  show i ∈ ((View.whole main_v84).slice (win4_5.rect t4_0)).set
  rw [View.set_slice_whole, Rect.mem_set_unit]
  intro a
  match a with
  | ⟨0, _⟩ =>
    show win4_5.index t4_0 (0 : Fin 2) * 512 ≤ (i 0).val ∧ (i 0).val < win4_5.index t4_0 (0 : Fin 2) * 512 + 512
    rw [e0]; omega
  | ⟨1, _⟩ =>
    show win4_5.index t4_0 (1 : Fin 2) * 1 ≤ (i 1).val ∧ (i 1).val < win4_5.index t4_0 (1 : Fin 2) * 1 + 1
    rw [e1]; omega

/-- After the launch the output column holds the perceptron of the arrays the launch found. -/
theorem whole4 (c : Dev nD) (b3 : FVec Ideal Cert.ReferenceIdeal.S128 .f32) (b4 : FVec Ideal Cert.ReferenceIdeal.S1 .f32)
    (h3 : ∀ j : Fin 128, (V c main_v82 : Vec Ideal S1x128 .f32) (ix2 (0 : Fin 1) j) = b3 (ix1 j))
    (h4 : ∀ u : Fin 1, (V c main_v83 : Vec Ideal S1x1 .f32) (ix2 (0 : Fin 1) u) = b4 (ix1 u)) :
    (dat4 V c).arrAt 5 cfg4.N = Cert.RefOps.mlp (V c main_v81) (V c main_arg9) b3 (V c main_arg11) b4 :=
  (dat4 V c).arrAt_eq_of_cover 5 _ (fun t _ => flushed4 V c b3 b4 h3 h4 t) cover4

end Cert.KernelIdeal.Pooled

end
-- ==== Proof.Stretches.lean ====
/-
  The host operations between the kernel launches, each stretch as a function of the buffer contents it starts from.

  Before the first launch the program builds, from the edge list and the edge attributes alone, the source and target
  index vectors (with the self-loops appended) and each edge's normalisation. Between a projection launch and the next
  bias launch it does one layer's message passing on the projected features and reshapes the layer's bias to one row.
  Before the last launch it averages the node features per graph, appends the per-graph inputs and reshapes the two
  perceptron biases; after it, it flattens the output column. Every stretch leaves every buffer it does not write as
  it found it. The contents `W` a stretch starts from are arbitrary here.
-/
import proofs.«100806_j34437047779687_1_alg».proof.Proof.Gen.KernelIdeal.Launch
import proofs.«100806_j34437047779687_1_alg».proof.Proof.RefOps
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo

/-- Reads that the one-pass form leaves inside the operand list of a concatenation, rewritten one at a time: each
    operation's result at its own buffer is its function's value, at any other buffer what was there before. -/
macro "finish_reads" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

variable (W : Valuation τ sig (Elt Ideal))

/-! ## Before the first launch -/

/-! ### Its three stretches one at a time: the edge data; the inverse root degree; the edges' normalisation -/

theorem s0_src : StableHlo.after hostOps0 W (Proc.devRef .tc main_v10)
    = Cert.ReferenceIdeal.Read.val_main_v10 (F := Ideal) (W (Proc.devRef .tc main_arg1)) := by
  after_results_simp
  finish_reads
  rfl

theorem s0_dst : StableHlo.after hostOps0 W (Proc.devRef .tc main_v11)
    = Cert.ReferenceIdeal.Read.val_main_v11 (F := Ideal) (W (Proc.devRef .tc main_arg1)) := by
  after_results_simp
  finish_reads
  rfl

/-- Every edge's weight, the self-loops' weight one appended. -/
theorem s0_ew : StableHlo.after hostOps0 W (Proc.devRef .tc main_v13)
    = Cert.ReferenceIdeal.Read.val_main_v13 (F := Ideal) (W (Proc.devRef .tc main_arg2)) := by
  after_results_simp
  finish_reads
  rfl

/-- Where the weighted degree is positive. -/
theorem s0_pos : StableHlo.after hostOps0 W (Proc.devRef .tc main_v18)
    = Cert.ReferenceIdeal.Read.val_main_v19 (F := Ideal) (W (Proc.devRef .tc main_arg1)) (W (Proc.devRef .tc main_arg2)) := by
  after_results_simp
  finish_reads
  rfl

/-- The inverse root of the weighted degree. -/
theorem s0_rs : StableHlo.after hostOps0 W (Proc.devRef .tc main_v19)
    = Cert.ReferenceIdeal.Read.val_main_v20 (F := Ideal) (W (Proc.devRef .tc main_arg1)) (W (Proc.devRef .tc main_arg2)) := by
  after_results_simp
  finish_reads
  rfl

theorem s0_zero : StableHlo.after hostOps0 W (Proc.devRef .tc main_cst_3)
    = Cert.ReferenceIdeal.Read.val_main_cst_3 (F := Ideal) := by
  after_results_simp
  finish_reads
  rfl

/-- The inverse root degree where the degree is positive, zero elsewhere. -/
theorem s01_dinv : StableHlo.after hostOps0_1 W (Proc.devRef .tc main_v20)
    = select (W (Proc.devRef .tc main_v18)) (W (Proc.devRef .tc main_v19)) (broadcastInDim S100000 ![] bcast_S_S100000 (id (W (Proc.devRef .tc main_cst_3)))) := by
  after_results_simp
  finish_reads
  rfl

theorem s01_keep_v10 : StableHlo.after hostOps0_1 W (Proc.devRef .tc main_v10) = W (Proc.devRef .tc main_v10) := by
  after_results
theorem s01_keep_v11 : StableHlo.after hostOps0_1 W (Proc.devRef .tc main_v11) = W (Proc.devRef .tc main_v11) := by
  after_results
theorem s01_keep_v13 : StableHlo.after hostOps0_1 W (Proc.devRef .tc main_v13) = W (Proc.devRef .tc main_v13) := by
  after_results

theorem s02_norm : StableHlo.after hostOps0_2 W (Proc.devRef .tc main_v36)
    = Cert.RefOps.norm (W (Proc.devRef .tc main_v20)) (W (Proc.devRef .tc main_v10)) (W (Proc.devRef .tc main_v11)) (W (Proc.devRef .tc main_v13)) := by
  after_results_simp
  finish_reads
  rfl

/-- The reference's normalisation is the same named step of its own inverse root degree and index vectors. -/
theorem ref_norm (a1 : (⟨Cert.ReferenceIdeal.S2x1600000, .i32⟩ : BufTy).Contents (Elt Ideal)) (a2 : (⟨Cert.ReferenceIdeal.S1600000, .f32⟩ : BufTy).Contents (Elt Ideal)) :
    Cert.ReferenceIdeal.Read.val_main_v37 (F := Ideal) a1 a2
      = Cert.RefOps.norm (select (Cert.ReferenceIdeal.Read.val_main_v19 (F := Ideal) a1 a2) (Cert.ReferenceIdeal.Read.val_main_v20 (F := Ideal) a1 a2)
          (broadcastInDim Cert.ReferenceIdeal.S100000 ![] Cert.ReferenceIdeal.Gen.bcast_S_S100000 (id (Cert.ReferenceIdeal.Read.val_main_cst_3 (F := Ideal)))))
        (Cert.ReferenceIdeal.Read.val_main_v10 (F := Ideal) a1) (Cert.ReferenceIdeal.Read.val_main_v11 (F := Ideal) a1) (Cert.ReferenceIdeal.Read.val_main_v13 (F := Ideal) a2) := rfl

/-! ### The three together -/

/-- The source index of every edge, self-loops appended. -/
theorem pre_src : StableHlo.after hostOps0_2 (StableHlo.after hostOps0_1 (StableHlo.after hostOps0 W)) (Proc.devRef .tc main_v10)
    = Cert.ReferenceIdeal.Read.val_main_v10 (F := Ideal) (W (Proc.devRef .tc main_arg1)) := by
  after_results
  rfl

/-- The target index of every edge, self-loops appended. -/
theorem pre_dst : StableHlo.after hostOps0_2 (StableHlo.after hostOps0_1 (StableHlo.after hostOps0 W)) (Proc.devRef .tc main_v11)
    = Cert.ReferenceIdeal.Read.val_main_v11 (F := Ideal) (W (Proc.devRef .tc main_arg1)) := by
  after_results
  rfl

/-- Every edge's normalisation. -/
theorem pre_norm : StableHlo.after hostOps0_2 (StableHlo.after hostOps0_1 (StableHlo.after hostOps0 W)) (Proc.devRef .tc main_v36)
    = Cert.ReferenceIdeal.Read.val_main_v37 (F := Ideal) (W (Proc.devRef .tc main_arg1)) (W (Proc.devRef .tc main_arg2)) := by
  rw [s02_norm, s01_dinv, s01_keep_v10, s01_keep_v11, s01_keep_v13, s0_pos, s0_rs, s0_zero, s0_src, s0_dst, s0_ew, ref_norm]

theorem pre_keep_arg0 : StableHlo.after hostOps0_2 (StableHlo.after hostOps0_1 (StableHlo.after hostOps0 W)) (Proc.devRef .tc main_arg0) = W (Proc.devRef .tc main_arg0) := by
  after_results
theorem pre_keep_arg3 : StableHlo.after hostOps0_2 (StableHlo.after hostOps0_1 (StableHlo.after hostOps0 W)) (Proc.devRef .tc main_arg3) = W (Proc.devRef .tc main_arg3) := by
  after_results
theorem pre_keep_arg4 : StableHlo.after hostOps0_2 (StableHlo.after hostOps0_1 (StableHlo.after hostOps0 W)) (Proc.devRef .tc main_arg4) = W (Proc.devRef .tc main_arg4) := by
  after_results
theorem pre_keep_arg5 : StableHlo.after hostOps0_2 (StableHlo.after hostOps0_1 (StableHlo.after hostOps0 W)) (Proc.devRef .tc main_arg5) = W (Proc.devRef .tc main_arg5) := by
  after_results
theorem pre_keep_arg6 : StableHlo.after hostOps0_2 (StableHlo.after hostOps0_1 (StableHlo.after hostOps0 W)) (Proc.devRef .tc main_arg6) = W (Proc.devRef .tc main_arg6) := by
  after_results
theorem pre_keep_arg7 : StableHlo.after hostOps0_2 (StableHlo.after hostOps0_1 (StableHlo.after hostOps0 W)) (Proc.devRef .tc main_arg7) = W (Proc.devRef .tc main_arg7) := by
  after_results
theorem pre_keep_arg8 : StableHlo.after hostOps0_2 (StableHlo.after hostOps0_1 (StableHlo.after hostOps0 W)) (Proc.devRef .tc main_arg8) = W (Proc.devRef .tc main_arg8) := by
  after_results
theorem pre_keep_arg9 : StableHlo.after hostOps0_2 (StableHlo.after hostOps0_1 (StableHlo.after hostOps0 W)) (Proc.devRef .tc main_arg9) = W (Proc.devRef .tc main_arg9) := by
  after_results
theorem pre_keep_arg10 : StableHlo.after hostOps0_2 (StableHlo.after hostOps0_1 (StableHlo.after hostOps0 W)) (Proc.devRef .tc main_arg10) = W (Proc.devRef .tc main_arg10) := by
  after_results
theorem pre_keep_arg11 : StableHlo.after hostOps0_2 (StableHlo.after hostOps0_1 (StableHlo.after hostOps0 W)) (Proc.devRef .tc main_arg11) = W (Proc.devRef .tc main_arg11) := by
  after_results
theorem pre_keep_arg12 : StableHlo.after hostOps0_2 (StableHlo.after hostOps0_1 (StableHlo.after hostOps0 W)) (Proc.devRef .tc main_arg12) = W (Proc.devRef .tc main_arg12) := by
  after_results

/-! ## Between the first projection and the first bias launch -/

theorem mid1_conv : StableHlo.after hostOps1 W (Proc.devRef .tc main_v50)
    = Cert.RefOps.conv (W (Proc.devRef .tc main_v37)) (W (Proc.devRef .tc main_v10)) (W (Proc.devRef .tc main_v11)) (W (Proc.devRef .tc main_v36)) := by
  after_results_simp
  rfl

theorem mid1_bias : StableHlo.after hostOps1 W (Proc.devRef .tc main_v51)
    = shapeCast S1x128 (W (Proc.devRef .tc main_arg6)) shapeCasts_S128_S1x128 := by
  after_results
  rfl

theorem mid1_keep_v10 : StableHlo.after hostOps1 W (Proc.devRef .tc main_v10) = W (Proc.devRef .tc main_v10) := by
  after_results
theorem mid1_keep_v11 : StableHlo.after hostOps1 W (Proc.devRef .tc main_v11) = W (Proc.devRef .tc main_v11) := by
  after_results
theorem mid1_keep_v36 : StableHlo.after hostOps1 W (Proc.devRef .tc main_v36) = W (Proc.devRef .tc main_v36) := by
  after_results
theorem mid1_keep_arg3 : StableHlo.after hostOps1 W (Proc.devRef .tc main_arg3) = W (Proc.devRef .tc main_arg3) := by
  after_results
theorem mid1_keep_arg4 : StableHlo.after hostOps1 W (Proc.devRef .tc main_arg4) = W (Proc.devRef .tc main_arg4) := by
  after_results
theorem mid1_keep_arg7 : StableHlo.after hostOps1 W (Proc.devRef .tc main_arg7) = W (Proc.devRef .tc main_arg7) := by
  after_results
theorem mid1_keep_arg8 : StableHlo.after hostOps1 W (Proc.devRef .tc main_arg8) = W (Proc.devRef .tc main_arg8) := by
  after_results
theorem mid1_keep_arg9 : StableHlo.after hostOps1 W (Proc.devRef .tc main_arg9) = W (Proc.devRef .tc main_arg9) := by
  after_results
theorem mid1_keep_arg10 : StableHlo.after hostOps1 W (Proc.devRef .tc main_arg10) = W (Proc.devRef .tc main_arg10) := by
  after_results
theorem mid1_keep_arg11 : StableHlo.after hostOps1 W (Proc.devRef .tc main_arg11) = W (Proc.devRef .tc main_arg11) := by
  after_results
theorem mid1_keep_arg12 : StableHlo.after hostOps1 W (Proc.devRef .tc main_arg12) = W (Proc.devRef .tc main_arg12) := by
  after_results

/-! ## Between the second projection and the second bias launch -/

theorem mid3_conv : StableHlo.after hostOps3 W (Proc.devRef .tc main_v66)
    = Cert.RefOps.conv (W (Proc.devRef .tc main_v53)) (W (Proc.devRef .tc main_v10)) (W (Proc.devRef .tc main_v11)) (W (Proc.devRef .tc main_v36)) := by
  after_results_simp
  rfl

theorem mid3_bias : StableHlo.after hostOps3 W (Proc.devRef .tc main_v67)
    = shapeCast S1x128 (W (Proc.devRef .tc main_arg8)) shapeCasts_S128_S1x128 := by
  after_results
  rfl

theorem mid3_keep_arg3 : StableHlo.after hostOps3 W (Proc.devRef .tc main_arg3) = W (Proc.devRef .tc main_arg3) := by
  after_results
theorem mid3_keep_arg4 : StableHlo.after hostOps3 W (Proc.devRef .tc main_arg4) = W (Proc.devRef .tc main_arg4) := by
  after_results
theorem mid3_keep_arg9 : StableHlo.after hostOps3 W (Proc.devRef .tc main_arg9) = W (Proc.devRef .tc main_arg9) := by
  after_results
theorem mid3_keep_arg10 : StableHlo.after hostOps3 W (Proc.devRef .tc main_arg10) = W (Proc.devRef .tc main_arg10) := by
  after_results
theorem mid3_keep_arg11 : StableHlo.after hostOps3 W (Proc.devRef .tc main_arg11) = W (Proc.devRef .tc main_arg11) := by
  after_results
theorem mid3_keep_arg12 : StableHlo.after hostOps3 W (Proc.devRef .tc main_arg12) = W (Proc.devRef .tc main_arg12) := by
  after_results

/-! ## Before the pooled launch -/

theorem mid4_pool : StableHlo.after hostOps4 W (Proc.devRef .tc main_v81)
    = Cert.RefOps.pool (W (Proc.devRef .tc main_v68)) (W (Proc.devRef .tc main_arg3)) (W (Proc.devRef .tc main_arg4)) := by
  after_results_simp
  rfl

theorem mid4_bias3 : StableHlo.after hostOps4 W (Proc.devRef .tc main_v82)
    = shapeCast S1x128 (W (Proc.devRef .tc main_arg10)) shapeCasts_S128_S1x128 := by
  after_results
  rfl

theorem mid4_bias4 : StableHlo.after hostOps4 W (Proc.devRef .tc main_v83)
    = shapeCast S1x1 (W (Proc.devRef .tc main_arg12)) shapeCasts_S1_S1x1 := by
  after_results
  rfl

theorem mid4_keep_arg9 : StableHlo.after hostOps4 W (Proc.devRef .tc main_arg9) = W (Proc.devRef .tc main_arg9) := by
  after_results
theorem mid4_keep_arg11 : StableHlo.after hostOps4 W (Proc.devRef .tc main_arg11) = W (Proc.devRef .tc main_arg11) := by
  after_results

/-! ## After the pooled launch -/

theorem tail_flat : StableHlo.after hostOps5 W (Proc.devRef .tc main_v85)
    = shapeCast S512 (W (Proc.devRef .tc main_v84)) shapeCasts_S512x1_S512 := by
  after_results
  rfl

end Cert.KernelIdeal.Host

end
-- ==== Proof.Total.lean ====
/-
  The reference's result as a composition of its named steps.

  One layer: project, pass messages along the edges with the edges' normalisation, add the bias and clamp. The result:
  two layers, the per-graph mean with the per-graph inputs appended, the perceptron, the output column flattened.
  The reference computes the edges' normalisation once per layer, from the same edge list and edge attributes both
  times: the two computations are the same function of the same arguments.
-/
import proofs.«100806_j34437047779687_1_alg».proof.Proof.RefOps

set_option maxRecDepth 16384

noncomputable section

namespace Cert.RefOps

open Cert.ReferenceIdeal Cert.ReferenceIdeal.Gen Cert.ReferenceIdeal.Read Idealize.ShloMosaic

/-- One graph-convolution layer on features `x` with weights `w` and bias `b`, over the graph given by the edge list
    `e` and the edge attributes `a`. -/
def layer (x : FVec Ideal S100000x128 .f32) (w : FVec Ideal S128x128 .f32) (b : FVec Ideal S128 .f32)
    (e : (⟨S2x1600000, .i32⟩ : BufTy).Contents (Elt Ideal)) (a : (⟨S1600000, .f32⟩ : BufTy).Contents (Elt Ideal)) : FVec Ideal S100000x128 .f32 :=
  biasRelu (conv (prod x w) (val_main_v10 (F := Ideal) e) (val_main_v11 (F := Ideal) e) (val_main_v37 (F := Ideal) e a)) b

/-- The whole computation. -/
def total (a0 : (⟨S100000x128, .f32⟩ : BufTy).Contents (Elt Ideal)) (a1 : (⟨S2x1600000, .i32⟩ : BufTy).Contents (Elt Ideal)) (a2 : (⟨S1600000, .f32⟩ : BufTy).Contents (Elt Ideal)) (a3 : (⟨S100000, .i32⟩ : BufTy).Contents (Elt Ideal)) (a4 : (⟨S512x64, .f32⟩ : BufTy).Contents (Elt Ideal)) (a5 : (⟨S128x128, .f32⟩ : BufTy).Contents (Elt Ideal)) (a6 : (⟨S128, .f32⟩ : BufTy).Contents (Elt Ideal)) (a7 : (⟨S128x128, .f32⟩ : BufTy).Contents (Elt Ideal)) (a8 : (⟨S128, .f32⟩ : BufTy).Contents (Elt Ideal)) (a9 : (⟨S192x128, .f32⟩ : BufTy).Contents (Elt Ideal)) (a10 : (⟨S128, .f32⟩ : BufTy).Contents (Elt Ideal)) (a11 : (⟨S128x1, .f32⟩ : BufTy).Contents (Elt Ideal)) (a12 : (⟨S1, .f32⟩ : BufTy).Contents (Elt Ideal)) : (⟨S512, .f32⟩ : BufTy).Contents (Elt Ideal) :=
  shapeCast S512 (mlp (pool (layer (layer a0 a5 a6 a1 a2) a7 a8 a1 a2) a3 a4) a9 a10 a11 a12) shapeCasts_S512x1_S512

/-- The second layer's normalisation is the first's. -/
theorem norm_again (a1 : (⟨S2x1600000, .i32⟩ : BufTy).Contents (Elt Ideal)) (a2 : (⟨S1600000, .f32⟩ : BufTy).Contents (Elt Ideal)) : val_main_v78 (F := Ideal) a1 a2 = val_main_v37 (F := Ideal) a1 a2 := rfl

/-- The first layer, as the reference computes it. -/
theorem layer1_eq (a0 : (⟨S100000x128, .f32⟩ : BufTy).Contents (Elt Ideal)) (a1 : (⟨S2x1600000, .i32⟩ : BufTy).Contents (Elt Ideal)) (a2 : (⟨S1600000, .f32⟩ : BufTy).Contents (Elt Ideal)) (a5 : (⟨S128x128, .f32⟩ : BufTy).Contents (Elt Ideal)) (a6 : (⟨S128, .f32⟩ : BufTy).Contents (Elt Ideal)) :
    val_main_v54 (F := Ideal) a0 a1 a2 a5 a6 = layer a0 a5 a6 a1 a2 := rfl

/-- The second layer, as the reference computes it. -/
theorem layer2_eq (a0 : (⟨S100000x128, .f32⟩ : BufTy).Contents (Elt Ideal)) (a1 : (⟨S2x1600000, .i32⟩ : BufTy).Contents (Elt Ideal)) (a2 : (⟨S1600000, .f32⟩ : BufTy).Contents (Elt Ideal)) (a5 : (⟨S128x128, .f32⟩ : BufTy).Contents (Elt Ideal)) (a6 : (⟨S128, .f32⟩ : BufTy).Contents (Elt Ideal)) (a7 : (⟨S128x128, .f32⟩ : BufTy).Contents (Elt Ideal)) (a8 : (⟨S128, .f32⟩ : BufTy).Contents (Elt Ideal)) :
    val_main_v95 (F := Ideal) a0 a1 a2 a5 a6 a7 a8 = layer (val_main_v54 (F := Ideal) a0 a1 a2 a5 a6) a7 a8 a1 a2 := rfl

/-- The pooled features, as the reference computes them. -/
theorem pool_eq (a0 : (⟨S100000x128, .f32⟩ : BufTy).Contents (Elt Ideal)) (a1 : (⟨S2x1600000, .i32⟩ : BufTy).Contents (Elt Ideal)) (a2 : (⟨S1600000, .f32⟩ : BufTy).Contents (Elt Ideal)) (a3 : (⟨S100000, .i32⟩ : BufTy).Contents (Elt Ideal)) (a4 : (⟨S512x64, .f32⟩ : BufTy).Contents (Elt Ideal)) (a5 : (⟨S128x128, .f32⟩ : BufTy).Contents (Elt Ideal)) (a6 : (⟨S128, .f32⟩ : BufTy).Contents (Elt Ideal)) (a7 : (⟨S128x128, .f32⟩ : BufTy).Contents (Elt Ideal)) (a8 : (⟨S128, .f32⟩ : BufTy).Contents (Elt Ideal)) :
    val_main_v108 (F := Ideal) a0 a1 a2 a3 a4 a5 a6 a7 a8 = pool (val_main_v95 (F := Ideal) a0 a1 a2 a5 a6 a7 a8) a3 a4 := rfl

/-- The perceptron's column, as the reference computes it. -/
theorem mlp_eq (a0 : (⟨S100000x128, .f32⟩ : BufTy).Contents (Elt Ideal)) (a1 : (⟨S2x1600000, .i32⟩ : BufTy).Contents (Elt Ideal)) (a2 : (⟨S1600000, .f32⟩ : BufTy).Contents (Elt Ideal)) (a3 : (⟨S100000, .i32⟩ : BufTy).Contents (Elt Ideal)) (a4 : (⟨S512x64, .f32⟩ : BufTy).Contents (Elt Ideal)) (a5 : (⟨S128x128, .f32⟩ : BufTy).Contents (Elt Ideal)) (a6 : (⟨S128, .f32⟩ : BufTy).Contents (Elt Ideal)) (a7 : (⟨S128x128, .f32⟩ : BufTy).Contents (Elt Ideal)) (a8 : (⟨S128, .f32⟩ : BufTy).Contents (Elt Ideal)) (a9 : (⟨S192x128, .f32⟩ : BufTy).Contents (Elt Ideal)) (a10 : (⟨S128, .f32⟩ : BufTy).Contents (Elt Ideal)) (a11 : (⟨S128x1, .f32⟩ : BufTy).Contents (Elt Ideal)) (a12 : (⟨S1, .f32⟩ : BufTy).Contents (Elt Ideal)) :
    val_main_v117 (F := Ideal) a0 a1 a2 a3 a4 a5 a6 a7 a8 a9 a10 a11 a12
      = mlp (val_main_v108 (F := Ideal) a0 a1 a2 a3 a4 a5 a6 a7 a8) a9 a10 a11 a12 := rfl

/-- The reference's result is the composition. -/
theorem total_eq (a0 : (⟨S100000x128, .f32⟩ : BufTy).Contents (Elt Ideal)) (a1 : (⟨S2x1600000, .i32⟩ : BufTy).Contents (Elt Ideal)) (a2 : (⟨S1600000, .f32⟩ : BufTy).Contents (Elt Ideal)) (a3 : (⟨S100000, .i32⟩ : BufTy).Contents (Elt Ideal)) (a4 : (⟨S512x64, .f32⟩ : BufTy).Contents (Elt Ideal)) (a5 : (⟨S128x128, .f32⟩ : BufTy).Contents (Elt Ideal)) (a6 : (⟨S128, .f32⟩ : BufTy).Contents (Elt Ideal)) (a7 : (⟨S128x128, .f32⟩ : BufTy).Contents (Elt Ideal)) (a8 : (⟨S128, .f32⟩ : BufTy).Contents (Elt Ideal)) (a9 : (⟨S192x128, .f32⟩ : BufTy).Contents (Elt Ideal)) (a10 : (⟨S128, .f32⟩ : BufTy).Contents (Elt Ideal)) (a11 : (⟨S128x1, .f32⟩ : BufTy).Contents (Elt Ideal)) (a12 : (⟨S1, .f32⟩ : BufTy).Contents (Elt Ideal)) :
    val_main_v118 (F := Ideal) a0 a1 a2 a3 a4 a5 a6 a7 a8 a9 a10 a11 a12 = total a0 a1 a2 a3 a4 a5 a6 a7 a8 a9 a10 a11 a12 := by
  unfold total val_main_v118
  rw [mlp_eq, pool_eq, layer2_eq, layer1_eq]

end Cert.RefOps

end
-- ==== Proof.Boundaries.lean ====
/-
  The buffer contents at each boundary of the idealized kernel's run, as functions of the argument arrays.

  Walking the program's twelve segments from the launch memory: the stretch before the first launch leaves the edges'
  source and target indices and normalisation; each projection launch leaves the product of the features it found with
  its weights; each stretch after a projection passes the messages and shapes the bias; each bias launch leaves the
  layer's output; the stretch before the last launch pools; the last launch leaves the perceptron's column; the last
  stretch flattens it. No segment writes an argument array, nor a buffer a later segment still reads, before that read.
-/
import proofs.«100806_j34437047779687_1_alg».proof.Proof.Gen.KernelIdeal.Frame
import proofs.«100806_j34437047779687_1_alg».proof.Proof.RegionProj
import proofs.«100806_j34437047779687_1_alg».proof.Proof.RegionBias
import proofs.«100806_j34437047779687_1_alg».proof.Proof.RegionPool
import proofs.«100806_j34437047779687_1_alg».proof.Proof.Stretches
import proofs.«100806_j34437047779687_1_alg».proof.Proof.Total
import Idealize.ShloMosaic.Lib.ValueLayout

set_option maxRecDepth 16384

noncomputable section

namespace Cert.KernelIdeal.Chain

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

/-! ## Entering the first projection launch -/
theorem at3_v10 : W3 m ρ c (Proc.devRef .tc main_v10) = (Cert.ReferenceIdeal.Read.val_main_v10 (F := Ideal) (m ((c : Thread nD τ).loc main_arg1))) :=
  Cert.KernelIdeal.Host.pre_src (W0 m ρ c)
theorem at3_v11 : W3 m ρ c (Proc.devRef .tc main_v11) = (Cert.ReferenceIdeal.Read.val_main_v11 (F := Ideal) (m ((c : Thread nD τ).loc main_arg1))) :=
  Cert.KernelIdeal.Host.pre_dst (W0 m ρ c)
theorem at3_v36 : W3 m ρ c (Proc.devRef .tc main_v36) = (Cert.ReferenceIdeal.Read.val_main_v37 (F := Ideal) (m ((c : Thread nD τ).loc main_arg1)) (m ((c : Thread nD τ).loc main_arg2))) :=
  Cert.KernelIdeal.Host.pre_norm (W0 m ρ c)
theorem at3_arg0 : W3 m ρ c (Proc.devRef .tc main_arg0) = (m ((c : Thread nD τ).loc main_arg0)) :=
  Cert.KernelIdeal.Host.pre_keep_arg0 (W0 m ρ c)
theorem at3_arg3 : W3 m ρ c (Proc.devRef .tc main_arg3) = (m ((c : Thread nD τ).loc main_arg3)) :=
  Cert.KernelIdeal.Host.pre_keep_arg3 (W0 m ρ c)
theorem at3_arg4 : W3 m ρ c (Proc.devRef .tc main_arg4) = (m ((c : Thread nD τ).loc main_arg4)) :=
  Cert.KernelIdeal.Host.pre_keep_arg4 (W0 m ρ c)
theorem at3_arg5 : W3 m ρ c (Proc.devRef .tc main_arg5) = (m ((c : Thread nD τ).loc main_arg5)) :=
  Cert.KernelIdeal.Host.pre_keep_arg5 (W0 m ρ c)
theorem at3_arg6 : W3 m ρ c (Proc.devRef .tc main_arg6) = (m ((c : Thread nD τ).loc main_arg6)) :=
  Cert.KernelIdeal.Host.pre_keep_arg6 (W0 m ρ c)
theorem at3_arg7 : W3 m ρ c (Proc.devRef .tc main_arg7) = (m ((c : Thread nD τ).loc main_arg7)) :=
  Cert.KernelIdeal.Host.pre_keep_arg7 (W0 m ρ c)
theorem at3_arg8 : W3 m ρ c (Proc.devRef .tc main_arg8) = (m ((c : Thread nD τ).loc main_arg8)) :=
  Cert.KernelIdeal.Host.pre_keep_arg8 (W0 m ρ c)
theorem at3_arg9 : W3 m ρ c (Proc.devRef .tc main_arg9) = (m ((c : Thread nD τ).loc main_arg9)) :=
  Cert.KernelIdeal.Host.pre_keep_arg9 (W0 m ρ c)
theorem at3_arg10 : W3 m ρ c (Proc.devRef .tc main_arg10) = (m ((c : Thread nD τ).loc main_arg10)) :=
  Cert.KernelIdeal.Host.pre_keep_arg10 (W0 m ρ c)
theorem at3_arg11 : W3 m ρ c (Proc.devRef .tc main_arg11) = (m ((c : Thread nD τ).loc main_arg11)) :=
  Cert.KernelIdeal.Host.pre_keep_arg11 (W0 m ρ c)
theorem at3_arg12 : W3 m ρ c (Proc.devRef .tc main_arg12) = (m ((c : Thread nD τ).loc main_arg12)) :=
  Cert.KernelIdeal.Host.pre_keep_arg12 (W0 m ρ c)

/-! ## Leaving it: the first projection -/
theorem at4_v37 : W4 m ρ c (Proc.devRef .tc main_v37) = (Cert.RefOps.prod (m ((c : Thread nD τ).loc main_arg0)) (m ((c : Thread nD τ).loc main_arg5))) :=
  (W4_arr m ρ c 2).trans ((Cert.KernelIdeal.Proj.whole0 (V3 m ρ) c).trans (congrArg₂ Cert.RefOps.prod (at3_arg0 m ρ c) (at3_arg5 m ρ c)))
theorem at4_v10 : W4 m ρ c (Proc.devRef .tc main_v10) = (Cert.ReferenceIdeal.Read.val_main_v10 (F := Ideal) (m ((c : Thread nD τ).loc main_arg1))) :=
  (W4_of_ne m ρ c main_v10 (by decide)).trans (at3_v10 m ρ c)
theorem at4_v11 : W4 m ρ c (Proc.devRef .tc main_v11) = (Cert.ReferenceIdeal.Read.val_main_v11 (F := Ideal) (m ((c : Thread nD τ).loc main_arg1))) :=
  (W4_of_ne m ρ c main_v11 (by decide)).trans (at3_v11 m ρ c)
theorem at4_v36 : W4 m ρ c (Proc.devRef .tc main_v36) = (Cert.ReferenceIdeal.Read.val_main_v37 (F := Ideal) (m ((c : Thread nD τ).loc main_arg1)) (m ((c : Thread nD τ).loc main_arg2))) :=
  (W4_of_ne m ρ c main_v36 (by decide)).trans (at3_v36 m ρ c)
theorem at4_arg3 : W4 m ρ c (Proc.devRef .tc main_arg3) = (m ((c : Thread nD τ).loc main_arg3)) :=
  (W4_of_ne m ρ c main_arg3 (by decide)).trans (at3_arg3 m ρ c)
theorem at4_arg4 : W4 m ρ c (Proc.devRef .tc main_arg4) = (m ((c : Thread nD τ).loc main_arg4)) :=
  (W4_of_ne m ρ c main_arg4 (by decide)).trans (at3_arg4 m ρ c)
theorem at4_arg6 : W4 m ρ c (Proc.devRef .tc main_arg6) = (m ((c : Thread nD τ).loc main_arg6)) :=
  (W4_of_ne m ρ c main_arg6 (by decide)).trans (at3_arg6 m ρ c)
theorem at4_arg7 : W4 m ρ c (Proc.devRef .tc main_arg7) = (m ((c : Thread nD τ).loc main_arg7)) :=
  (W4_of_ne m ρ c main_arg7 (by decide)).trans (at3_arg7 m ρ c)
theorem at4_arg8 : W4 m ρ c (Proc.devRef .tc main_arg8) = (m ((c : Thread nD τ).loc main_arg8)) :=
  (W4_of_ne m ρ c main_arg8 (by decide)).trans (at3_arg8 m ρ c)
theorem at4_arg9 : W4 m ρ c (Proc.devRef .tc main_arg9) = (m ((c : Thread nD τ).loc main_arg9)) :=
  (W4_of_ne m ρ c main_arg9 (by decide)).trans (at3_arg9 m ρ c)
theorem at4_arg10 : W4 m ρ c (Proc.devRef .tc main_arg10) = (m ((c : Thread nD τ).loc main_arg10)) :=
  (W4_of_ne m ρ c main_arg10 (by decide)).trans (at3_arg10 m ρ c)
theorem at4_arg11 : W4 m ρ c (Proc.devRef .tc main_arg11) = (m ((c : Thread nD τ).loc main_arg11)) :=
  (W4_of_ne m ρ c main_arg11 (by decide)).trans (at3_arg11 m ρ c)
theorem at4_arg12 : W4 m ρ c (Proc.devRef .tc main_arg12) = (m ((c : Thread nD τ).loc main_arg12)) :=
  (W4_of_ne m ρ c main_arg12 (by decide)).trans (at3_arg12 m ρ c)

/-! ## Entering the first bias launch: the first layer's messages, and its bias as one row -/
theorem at5_v50 : W5 m ρ c (Proc.devRef .tc main_v50) = (Cert.RefOps.conv (Cert.RefOps.prod (m ((c : Thread nD τ).loc main_arg0)) (m ((c : Thread nD τ).loc main_arg5))) (Cert.ReferenceIdeal.Read.val_main_v10 (F := Ideal) (m ((c : Thread nD τ).loc main_arg1))) (Cert.ReferenceIdeal.Read.val_main_v11 (F := Ideal) (m ((c : Thread nD τ).loc main_arg1))) (Cert.ReferenceIdeal.Read.val_main_v37 (F := Ideal) (m ((c : Thread nD τ).loc main_arg1)) (m ((c : Thread nD τ).loc main_arg2)))) :=
  (Cert.KernelIdeal.Host.mid1_conv (W4 m ρ c)).trans (by rw [at4_v37 m ρ c, at4_v10 m ρ c, at4_v11 m ρ c, at4_v36 m ρ c])
theorem at5_v51 : W5 m ρ c (Proc.devRef .tc main_v51) = shapeCast S1x128 (m ((c : Thread nD τ).loc main_arg6)) shapeCasts_S128_S1x128 :=
  (Cert.KernelIdeal.Host.mid1_bias (W4 m ρ c)).trans (by rw [at4_arg6 m ρ c])
theorem at5_v10 : W5 m ρ c (Proc.devRef .tc main_v10) = (Cert.ReferenceIdeal.Read.val_main_v10 (F := Ideal) (m ((c : Thread nD τ).loc main_arg1))) :=
  (Cert.KernelIdeal.Host.mid1_keep_v10 (W4 m ρ c)).trans (at4_v10 m ρ c)
theorem at5_v11 : W5 m ρ c (Proc.devRef .tc main_v11) = (Cert.ReferenceIdeal.Read.val_main_v11 (F := Ideal) (m ((c : Thread nD τ).loc main_arg1))) :=
  (Cert.KernelIdeal.Host.mid1_keep_v11 (W4 m ρ c)).trans (at4_v11 m ρ c)
theorem at5_v36 : W5 m ρ c (Proc.devRef .tc main_v36) = (Cert.ReferenceIdeal.Read.val_main_v37 (F := Ideal) (m ((c : Thread nD τ).loc main_arg1)) (m ((c : Thread nD τ).loc main_arg2))) :=
  (Cert.KernelIdeal.Host.mid1_keep_v36 (W4 m ρ c)).trans (at4_v36 m ρ c)
theorem at5_arg3 : W5 m ρ c (Proc.devRef .tc main_arg3) = (m ((c : Thread nD τ).loc main_arg3)) :=
  (Cert.KernelIdeal.Host.mid1_keep_arg3 (W4 m ρ c)).trans (at4_arg3 m ρ c)
theorem at5_arg4 : W5 m ρ c (Proc.devRef .tc main_arg4) = (m ((c : Thread nD τ).loc main_arg4)) :=
  (Cert.KernelIdeal.Host.mid1_keep_arg4 (W4 m ρ c)).trans (at4_arg4 m ρ c)
theorem at5_arg7 : W5 m ρ c (Proc.devRef .tc main_arg7) = (m ((c : Thread nD τ).loc main_arg7)) :=
  (Cert.KernelIdeal.Host.mid1_keep_arg7 (W4 m ρ c)).trans (at4_arg7 m ρ c)
theorem at5_arg8 : W5 m ρ c (Proc.devRef .tc main_arg8) = (m ((c : Thread nD τ).loc main_arg8)) :=
  (Cert.KernelIdeal.Host.mid1_keep_arg8 (W4 m ρ c)).trans (at4_arg8 m ρ c)
theorem at5_arg9 : W5 m ρ c (Proc.devRef .tc main_arg9) = (m ((c : Thread nD τ).loc main_arg9)) :=
  (Cert.KernelIdeal.Host.mid1_keep_arg9 (W4 m ρ c)).trans (at4_arg9 m ρ c)
theorem at5_arg10 : W5 m ρ c (Proc.devRef .tc main_arg10) = (m ((c : Thread nD τ).loc main_arg10)) :=
  (Cert.KernelIdeal.Host.mid1_keep_arg10 (W4 m ρ c)).trans (at4_arg10 m ρ c)
theorem at5_arg11 : W5 m ρ c (Proc.devRef .tc main_arg11) = (m ((c : Thread nD τ).loc main_arg11)) :=
  (Cert.KernelIdeal.Host.mid1_keep_arg11 (W4 m ρ c)).trans (at4_arg11 m ρ c)
theorem at5_arg12 : W5 m ρ c (Proc.devRef .tc main_arg12) = (m ((c : Thread nD τ).loc main_arg12)) :=
  (Cert.KernelIdeal.Host.mid1_keep_arg12 (W4 m ρ c)).trans (at4_arg12 m ρ c)

/-! ## Leaving it: the first layer -/
theorem bias1_row (q : Fin 128) : (V5 m ρ c main_v51 : Vec Ideal S1x128 .f32) (ix2 (0 : Fin 1) q) = (m ((c : Thread nD τ).loc main_arg6)) (ix1 q) :=
  (congrFun (at5_v51 m ρ c) (ix2 (0 : Fin 1) q)).trans (shapeCast_a_1a_apply (m ((c : Thread nD τ).loc main_arg6)) shapeCasts_S128_S1x128 0 q)
theorem at6_v52 : W6 m ρ c (Proc.devRef .tc main_v52) = (Cert.RefOps.biasRelu (Cert.RefOps.conv (Cert.RefOps.prod (m ((c : Thread nD τ).loc main_arg0)) (m ((c : Thread nD τ).loc main_arg5))) (Cert.ReferenceIdeal.Read.val_main_v10 (F := Ideal) (m ((c : Thread nD τ).loc main_arg1))) (Cert.ReferenceIdeal.Read.val_main_v11 (F := Ideal) (m ((c : Thread nD τ).loc main_arg1))) (Cert.ReferenceIdeal.Read.val_main_v37 (F := Ideal) (m ((c : Thread nD τ).loc main_arg1)) (m ((c : Thread nD τ).loc main_arg2)))) (m ((c : Thread nD τ).loc main_arg6))) :=
  (W6_arr m ρ c 2).trans ((Cert.KernelIdeal.Bias.whole1 (V5 m ρ) c (m ((c : Thread nD τ).loc main_arg6)) (bias1_row m ρ c)).trans
    (congrArg (Cert.RefOps.biasRelu · (m ((c : Thread nD τ).loc main_arg6))) (at5_v50 m ρ c)))
theorem at6_v10 : W6 m ρ c (Proc.devRef .tc main_v10) = (Cert.ReferenceIdeal.Read.val_main_v10 (F := Ideal) (m ((c : Thread nD τ).loc main_arg1))) :=
  (W6_of_ne m ρ c main_v10 (by decide)).trans (at5_v10 m ρ c)
theorem at6_v11 : W6 m ρ c (Proc.devRef .tc main_v11) = (Cert.ReferenceIdeal.Read.val_main_v11 (F := Ideal) (m ((c : Thread nD τ).loc main_arg1))) :=
  (W6_of_ne m ρ c main_v11 (by decide)).trans (at5_v11 m ρ c)
theorem at6_v36 : W6 m ρ c (Proc.devRef .tc main_v36) = (Cert.ReferenceIdeal.Read.val_main_v37 (F := Ideal) (m ((c : Thread nD τ).loc main_arg1)) (m ((c : Thread nD τ).loc main_arg2))) :=
  (W6_of_ne m ρ c main_v36 (by decide)).trans (at5_v36 m ρ c)
theorem at6_arg3 : W6 m ρ c (Proc.devRef .tc main_arg3) = (m ((c : Thread nD τ).loc main_arg3)) :=
  (W6_of_ne m ρ c main_arg3 (by decide)).trans (at5_arg3 m ρ c)
theorem at6_arg4 : W6 m ρ c (Proc.devRef .tc main_arg4) = (m ((c : Thread nD τ).loc main_arg4)) :=
  (W6_of_ne m ρ c main_arg4 (by decide)).trans (at5_arg4 m ρ c)
theorem at6_arg7 : W6 m ρ c (Proc.devRef .tc main_arg7) = (m ((c : Thread nD τ).loc main_arg7)) :=
  (W6_of_ne m ρ c main_arg7 (by decide)).trans (at5_arg7 m ρ c)
theorem at6_arg8 : W6 m ρ c (Proc.devRef .tc main_arg8) = (m ((c : Thread nD τ).loc main_arg8)) :=
  (W6_of_ne m ρ c main_arg8 (by decide)).trans (at5_arg8 m ρ c)
theorem at6_arg9 : W6 m ρ c (Proc.devRef .tc main_arg9) = (m ((c : Thread nD τ).loc main_arg9)) :=
  (W6_of_ne m ρ c main_arg9 (by decide)).trans (at5_arg9 m ρ c)
theorem at6_arg10 : W6 m ρ c (Proc.devRef .tc main_arg10) = (m ((c : Thread nD τ).loc main_arg10)) :=
  (W6_of_ne m ρ c main_arg10 (by decide)).trans (at5_arg10 m ρ c)
theorem at6_arg11 : W6 m ρ c (Proc.devRef .tc main_arg11) = (m ((c : Thread nD τ).loc main_arg11)) :=
  (W6_of_ne m ρ c main_arg11 (by decide)).trans (at5_arg11 m ρ c)
theorem at6_arg12 : W6 m ρ c (Proc.devRef .tc main_arg12) = (m ((c : Thread nD τ).loc main_arg12)) :=
  (W6_of_ne m ρ c main_arg12 (by decide)).trans (at5_arg12 m ρ c)

/-! ## Leaving the second projection launch -/
theorem at7_v53 : W7 m ρ c (Proc.devRef .tc main_v53) = (Cert.RefOps.prod (Cert.RefOps.biasRelu (Cert.RefOps.conv (Cert.RefOps.prod (m ((c : Thread nD τ).loc main_arg0)) (m ((c : Thread nD τ).loc main_arg5))) (Cert.ReferenceIdeal.Read.val_main_v10 (F := Ideal) (m ((c : Thread nD τ).loc main_arg1))) (Cert.ReferenceIdeal.Read.val_main_v11 (F := Ideal) (m ((c : Thread nD τ).loc main_arg1))) (Cert.ReferenceIdeal.Read.val_main_v37 (F := Ideal) (m ((c : Thread nD τ).loc main_arg1)) (m ((c : Thread nD τ).loc main_arg2)))) (m ((c : Thread nD τ).loc main_arg6))) (m ((c : Thread nD τ).loc main_arg7))) :=
  (W7_arr m ρ c 2).trans ((Cert.KernelIdeal.Proj.whole2 (V6 m ρ) c).trans (congrArg₂ Cert.RefOps.prod (at6_v52 m ρ c) (at6_arg7 m ρ c)))
theorem at7_v10 : W7 m ρ c (Proc.devRef .tc main_v10) = (Cert.ReferenceIdeal.Read.val_main_v10 (F := Ideal) (m ((c : Thread nD τ).loc main_arg1))) :=
  (W7_of_ne m ρ c main_v10 (by decide)).trans (at6_v10 m ρ c)
theorem at7_v11 : W7 m ρ c (Proc.devRef .tc main_v11) = (Cert.ReferenceIdeal.Read.val_main_v11 (F := Ideal) (m ((c : Thread nD τ).loc main_arg1))) :=
  (W7_of_ne m ρ c main_v11 (by decide)).trans (at6_v11 m ρ c)
theorem at7_v36 : W7 m ρ c (Proc.devRef .tc main_v36) = (Cert.ReferenceIdeal.Read.val_main_v37 (F := Ideal) (m ((c : Thread nD τ).loc main_arg1)) (m ((c : Thread nD τ).loc main_arg2))) :=
  (W7_of_ne m ρ c main_v36 (by decide)).trans (at6_v36 m ρ c)
theorem at7_arg3 : W7 m ρ c (Proc.devRef .tc main_arg3) = (m ((c : Thread nD τ).loc main_arg3)) :=
  (W7_of_ne m ρ c main_arg3 (by decide)).trans (at6_arg3 m ρ c)
theorem at7_arg4 : W7 m ρ c (Proc.devRef .tc main_arg4) = (m ((c : Thread nD τ).loc main_arg4)) :=
  (W7_of_ne m ρ c main_arg4 (by decide)).trans (at6_arg4 m ρ c)
theorem at7_arg8 : W7 m ρ c (Proc.devRef .tc main_arg8) = (m ((c : Thread nD τ).loc main_arg8)) :=
  (W7_of_ne m ρ c main_arg8 (by decide)).trans (at6_arg8 m ρ c)
theorem at7_arg9 : W7 m ρ c (Proc.devRef .tc main_arg9) = (m ((c : Thread nD τ).loc main_arg9)) :=
  (W7_of_ne m ρ c main_arg9 (by decide)).trans (at6_arg9 m ρ c)
theorem at7_arg10 : W7 m ρ c (Proc.devRef .tc main_arg10) = (m ((c : Thread nD τ).loc main_arg10)) :=
  (W7_of_ne m ρ c main_arg10 (by decide)).trans (at6_arg10 m ρ c)
theorem at7_arg11 : W7 m ρ c (Proc.devRef .tc main_arg11) = (m ((c : Thread nD τ).loc main_arg11)) :=
  (W7_of_ne m ρ c main_arg11 (by decide)).trans (at6_arg11 m ρ c)
theorem at7_arg12 : W7 m ρ c (Proc.devRef .tc main_arg12) = (m ((c : Thread nD τ).loc main_arg12)) :=
  (W7_of_ne m ρ c main_arg12 (by decide)).trans (at6_arg12 m ρ c)

/-! ## Entering the second bias launch -/
theorem at8_v66 : W8 m ρ c (Proc.devRef .tc main_v66) = (Cert.RefOps.conv (Cert.RefOps.prod (Cert.RefOps.biasRelu (Cert.RefOps.conv (Cert.RefOps.prod (m ((c : Thread nD τ).loc main_arg0)) (m ((c : Thread nD τ).loc main_arg5))) (Cert.ReferenceIdeal.Read.val_main_v10 (F := Ideal) (m ((c : Thread nD τ).loc main_arg1))) (Cert.ReferenceIdeal.Read.val_main_v11 (F := Ideal) (m ((c : Thread nD τ).loc main_arg1))) (Cert.ReferenceIdeal.Read.val_main_v37 (F := Ideal) (m ((c : Thread nD τ).loc main_arg1)) (m ((c : Thread nD τ).loc main_arg2)))) (m ((c : Thread nD τ).loc main_arg6))) (m ((c : Thread nD τ).loc main_arg7))) (Cert.ReferenceIdeal.Read.val_main_v10 (F := Ideal) (m ((c : Thread nD τ).loc main_arg1))) (Cert.ReferenceIdeal.Read.val_main_v11 (F := Ideal) (m ((c : Thread nD τ).loc main_arg1))) (Cert.ReferenceIdeal.Read.val_main_v37 (F := Ideal) (m ((c : Thread nD τ).loc main_arg1)) (m ((c : Thread nD τ).loc main_arg2)))) :=
  (Cert.KernelIdeal.Host.mid3_conv (W7 m ρ c)).trans (by rw [at7_v53 m ρ c, at7_v10 m ρ c, at7_v11 m ρ c, at7_v36 m ρ c])
theorem at8_v67 : W8 m ρ c (Proc.devRef .tc main_v67) = shapeCast S1x128 (m ((c : Thread nD τ).loc main_arg8)) shapeCasts_S128_S1x128 :=
  (Cert.KernelIdeal.Host.mid3_bias (W7 m ρ c)).trans (by rw [at7_arg8 m ρ c])
theorem at8_arg3 : W8 m ρ c (Proc.devRef .tc main_arg3) = (m ((c : Thread nD τ).loc main_arg3)) :=
  (Cert.KernelIdeal.Host.mid3_keep_arg3 (W7 m ρ c)).trans (at7_arg3 m ρ c)
theorem at8_arg4 : W8 m ρ c (Proc.devRef .tc main_arg4) = (m ((c : Thread nD τ).loc main_arg4)) :=
  (Cert.KernelIdeal.Host.mid3_keep_arg4 (W7 m ρ c)).trans (at7_arg4 m ρ c)
theorem at8_arg9 : W8 m ρ c (Proc.devRef .tc main_arg9) = (m ((c : Thread nD τ).loc main_arg9)) :=
  (Cert.KernelIdeal.Host.mid3_keep_arg9 (W7 m ρ c)).trans (at7_arg9 m ρ c)
theorem at8_arg10 : W8 m ρ c (Proc.devRef .tc main_arg10) = (m ((c : Thread nD τ).loc main_arg10)) :=
  (Cert.KernelIdeal.Host.mid3_keep_arg10 (W7 m ρ c)).trans (at7_arg10 m ρ c)
theorem at8_arg11 : W8 m ρ c (Proc.devRef .tc main_arg11) = (m ((c : Thread nD τ).loc main_arg11)) :=
  (Cert.KernelIdeal.Host.mid3_keep_arg11 (W7 m ρ c)).trans (at7_arg11 m ρ c)
theorem at8_arg12 : W8 m ρ c (Proc.devRef .tc main_arg12) = (m ((c : Thread nD τ).loc main_arg12)) :=
  (Cert.KernelIdeal.Host.mid3_keep_arg12 (W7 m ρ c)).trans (at7_arg12 m ρ c)

/-! ## Leaving it: the second layer -/
theorem bias2_row (q : Fin 128) : (V8 m ρ c main_v67 : Vec Ideal S1x128 .f32) (ix2 (0 : Fin 1) q) = (m ((c : Thread nD τ).loc main_arg8)) (ix1 q) :=
  (congrFun (at8_v67 m ρ c) (ix2 (0 : Fin 1) q)).trans (shapeCast_a_1a_apply (m ((c : Thread nD τ).loc main_arg8)) shapeCasts_S128_S1x128 0 q)
theorem at9_v68 : W9 m ρ c (Proc.devRef .tc main_v68) = (Cert.RefOps.biasRelu (Cert.RefOps.conv (Cert.RefOps.prod (Cert.RefOps.biasRelu (Cert.RefOps.conv (Cert.RefOps.prod (m ((c : Thread nD τ).loc main_arg0)) (m ((c : Thread nD τ).loc main_arg5))) (Cert.ReferenceIdeal.Read.val_main_v10 (F := Ideal) (m ((c : Thread nD τ).loc main_arg1))) (Cert.ReferenceIdeal.Read.val_main_v11 (F := Ideal) (m ((c : Thread nD τ).loc main_arg1))) (Cert.ReferenceIdeal.Read.val_main_v37 (F := Ideal) (m ((c : Thread nD τ).loc main_arg1)) (m ((c : Thread nD τ).loc main_arg2)))) (m ((c : Thread nD τ).loc main_arg6))) (m ((c : Thread nD τ).loc main_arg7))) (Cert.ReferenceIdeal.Read.val_main_v10 (F := Ideal) (m ((c : Thread nD τ).loc main_arg1))) (Cert.ReferenceIdeal.Read.val_main_v11 (F := Ideal) (m ((c : Thread nD τ).loc main_arg1))) (Cert.ReferenceIdeal.Read.val_main_v37 (F := Ideal) (m ((c : Thread nD τ).loc main_arg1)) (m ((c : Thread nD τ).loc main_arg2)))) (m ((c : Thread nD τ).loc main_arg8))) :=
  (W9_arr m ρ c 2).trans ((Cert.KernelIdeal.Bias.whole3 (V8 m ρ) c (m ((c : Thread nD τ).loc main_arg8)) (bias2_row m ρ c)).trans
    (congrArg (Cert.RefOps.biasRelu · (m ((c : Thread nD τ).loc main_arg8))) (at8_v66 m ρ c)))
theorem at9_arg3 : W9 m ρ c (Proc.devRef .tc main_arg3) = (m ((c : Thread nD τ).loc main_arg3)) :=
  (W9_of_ne m ρ c main_arg3 (by decide)).trans (at8_arg3 m ρ c)
theorem at9_arg4 : W9 m ρ c (Proc.devRef .tc main_arg4) = (m ((c : Thread nD τ).loc main_arg4)) :=
  (W9_of_ne m ρ c main_arg4 (by decide)).trans (at8_arg4 m ρ c)
theorem at9_arg9 : W9 m ρ c (Proc.devRef .tc main_arg9) = (m ((c : Thread nD τ).loc main_arg9)) :=
  (W9_of_ne m ρ c main_arg9 (by decide)).trans (at8_arg9 m ρ c)
theorem at9_arg10 : W9 m ρ c (Proc.devRef .tc main_arg10) = (m ((c : Thread nD τ).loc main_arg10)) :=
  (W9_of_ne m ρ c main_arg10 (by decide)).trans (at8_arg10 m ρ c)
theorem at9_arg11 : W9 m ρ c (Proc.devRef .tc main_arg11) = (m ((c : Thread nD τ).loc main_arg11)) :=
  (W9_of_ne m ρ c main_arg11 (by decide)).trans (at8_arg11 m ρ c)
theorem at9_arg12 : W9 m ρ c (Proc.devRef .tc main_arg12) = (m ((c : Thread nD τ).loc main_arg12)) :=
  (W9_of_ne m ρ c main_arg12 (by decide)).trans (at8_arg12 m ρ c)

/-! ## Entering the pooled launch -/
theorem at10_v81 : W10 m ρ c (Proc.devRef .tc main_v81) = (Cert.RefOps.pool (Cert.RefOps.biasRelu (Cert.RefOps.conv (Cert.RefOps.prod (Cert.RefOps.biasRelu (Cert.RefOps.conv (Cert.RefOps.prod (m ((c : Thread nD τ).loc main_arg0)) (m ((c : Thread nD τ).loc main_arg5))) (Cert.ReferenceIdeal.Read.val_main_v10 (F := Ideal) (m ((c : Thread nD τ).loc main_arg1))) (Cert.ReferenceIdeal.Read.val_main_v11 (F := Ideal) (m ((c : Thread nD τ).loc main_arg1))) (Cert.ReferenceIdeal.Read.val_main_v37 (F := Ideal) (m ((c : Thread nD τ).loc main_arg1)) (m ((c : Thread nD τ).loc main_arg2)))) (m ((c : Thread nD τ).loc main_arg6))) (m ((c : Thread nD τ).loc main_arg7))) (Cert.ReferenceIdeal.Read.val_main_v10 (F := Ideal) (m ((c : Thread nD τ).loc main_arg1))) (Cert.ReferenceIdeal.Read.val_main_v11 (F := Ideal) (m ((c : Thread nD τ).loc main_arg1))) (Cert.ReferenceIdeal.Read.val_main_v37 (F := Ideal) (m ((c : Thread nD τ).loc main_arg1)) (m ((c : Thread nD τ).loc main_arg2)))) (m ((c : Thread nD τ).loc main_arg8))) (m ((c : Thread nD τ).loc main_arg3)) (m ((c : Thread nD τ).loc main_arg4))) :=
  (Cert.KernelIdeal.Host.mid4_pool (W9 m ρ c)).trans (by rw [at9_v68 m ρ c, at9_arg3 m ρ c, at9_arg4 m ρ c])
theorem at10_v82 : W10 m ρ c (Proc.devRef .tc main_v82) = shapeCast S1x128 (m ((c : Thread nD τ).loc main_arg10)) shapeCasts_S128_S1x128 :=
  (Cert.KernelIdeal.Host.mid4_bias3 (W9 m ρ c)).trans (by rw [at9_arg10 m ρ c])
theorem at10_v83 : W10 m ρ c (Proc.devRef .tc main_v83) = shapeCast S1x1 (m ((c : Thread nD τ).loc main_arg12)) shapeCasts_S1_S1x1 :=
  (Cert.KernelIdeal.Host.mid4_bias4 (W9 m ρ c)).trans (by rw [at9_arg12 m ρ c])
theorem at10_arg9 : W10 m ρ c (Proc.devRef .tc main_arg9) = (m ((c : Thread nD τ).loc main_arg9)) :=
  (Cert.KernelIdeal.Host.mid4_keep_arg9 (W9 m ρ c)).trans (at9_arg9 m ρ c)
theorem at10_arg11 : W10 m ρ c (Proc.devRef .tc main_arg11) = (m ((c : Thread nD τ).loc main_arg11)) :=
  (Cert.KernelIdeal.Host.mid4_keep_arg11 (W9 m ρ c)).trans (at9_arg11 m ρ c)

/-! ## Leaving it, and the flattened result -/
theorem bias3_row (j : Fin 128) : (V10 m ρ c main_v82 : Vec Ideal S1x128 .f32) (ix2 (0 : Fin 1) j) = (m ((c : Thread nD τ).loc main_arg10)) (ix1 j) :=
  (congrFun (at10_v82 m ρ c) (ix2 (0 : Fin 1) j)).trans (shapeCast_a_1a_apply (m ((c : Thread nD τ).loc main_arg10)) shapeCasts_S128_S1x128 0 j)
theorem bias4_row (u : Fin 1) : (V10 m ρ c main_v83 : Vec Ideal S1x1 .f32) (ix2 (0 : Fin 1) u) = (m ((c : Thread nD τ).loc main_arg12)) (ix1 u) :=
  (congrFun (at10_v83 m ρ c) (ix2 (0 : Fin 1) u)).trans (shapeCast_a_1a_apply (m ((c : Thread nD τ).loc main_arg12)) shapeCasts_S1_S1x1 0 u)
theorem at11_v84 : W11 m ρ c (Proc.devRef .tc main_v84) = (Cert.RefOps.mlp (Cert.RefOps.pool (Cert.RefOps.biasRelu (Cert.RefOps.conv (Cert.RefOps.prod (Cert.RefOps.biasRelu (Cert.RefOps.conv (Cert.RefOps.prod (m ((c : Thread nD τ).loc main_arg0)) (m ((c : Thread nD τ).loc main_arg5))) (Cert.ReferenceIdeal.Read.val_main_v10 (F := Ideal) (m ((c : Thread nD τ).loc main_arg1))) (Cert.ReferenceIdeal.Read.val_main_v11 (F := Ideal) (m ((c : Thread nD τ).loc main_arg1))) (Cert.ReferenceIdeal.Read.val_main_v37 (F := Ideal) (m ((c : Thread nD τ).loc main_arg1)) (m ((c : Thread nD τ).loc main_arg2)))) (m ((c : Thread nD τ).loc main_arg6))) (m ((c : Thread nD τ).loc main_arg7))) (Cert.ReferenceIdeal.Read.val_main_v10 (F := Ideal) (m ((c : Thread nD τ).loc main_arg1))) (Cert.ReferenceIdeal.Read.val_main_v11 (F := Ideal) (m ((c : Thread nD τ).loc main_arg1))) (Cert.ReferenceIdeal.Read.val_main_v37 (F := Ideal) (m ((c : Thread nD τ).loc main_arg1)) (m ((c : Thread nD τ).loc main_arg2)))) (m ((c : Thread nD τ).loc main_arg8))) (m ((c : Thread nD τ).loc main_arg3)) (m ((c : Thread nD τ).loc main_arg4))) (m ((c : Thread nD τ).loc main_arg9)) (m ((c : Thread nD τ).loc main_arg10)) (m ((c : Thread nD τ).loc main_arg11)) (m ((c : Thread nD τ).loc main_arg12))) :=
  (W11_arr m ρ c 5).trans ((Cert.KernelIdeal.Pooled.whole4 (V10 m ρ) c (m ((c : Thread nD τ).loc main_arg10)) (m ((c : Thread nD τ).loc main_arg12)) (bias3_row m ρ c) (bias4_row m ρ c)).trans (by
    show Cert.RefOps.mlp (W10 m ρ c (Proc.devRef .tc main_v81)) (W10 m ρ c (Proc.devRef .tc main_arg9)) _ (W10 m ρ c (Proc.devRef .tc main_arg11)) _ = _
    rw [at10_v81 m ρ c, at10_arg9 m ρ c, at10_arg11 m ρ c]))
/-- The result buffer at the last boundary is the whole computation of the launch memory's argument arrays. -/
theorem at12_v85 : W12 m ρ c (Proc.devRef .tc main_v85) = (Cert.RefOps.total (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) :=
  (Cert.KernelIdeal.Host.tail_flat (W11 m ρ c)).trans (by rw [at11_v84 m ρ c]; rfl)

end Cert.KernelIdeal.Chain

end
-- ==== Proof.lean ====
/-
  A two-layer graph convolution network with mean pooling and a perceptron head, as five kernel launches among host
  operations, against the same network written with plain array operations.

  At the extended reals the two programs are the same function of the arguments. The host operations the kernel
  program keeps (the edge weights, the degree normalisation, the gathers along the edges, the scatter-adds, the
  pooling) are the reference's own operations on the same operands; the five launches are the reference's dense
  steps: a launch that multiplies 5000-row blocks by the weight matrix leaves the whole matrix product (a row of a
  product reads only that row of the left operand), a launch that adds a bias row to 5000-row blocks and clamps at
  zero leaves the whole array so treated, and the one-point launch on the pooled features is the perceptron; a
  narrowing of an operand to bf16 is the identity on the extended reals, and a product accumulated into zero is the
  plain sum. No law beyond these is used: no distributivity, no cancelling, so finiteness of the inputs is never opened.
  The reference computes the edges' normalisation once per layer and the kernel program once in all: the same
  function of the same arguments.

  Frames: the two kernel programs' by the generated frame certificates, the reference's by its generated run.
  The idealization rewrote no operation, so it preserves trivially.
-/
import proofs.«100806_j34437047779687_1_alg».proof.Defs
import proofs.«100806_j34437047779687_1_alg».proof.Proof.Gen.Kernel
import proofs.«100806_j34437047779687_1_alg».proof.Proof.Gen.Kernel.Skeleton
import proofs.«100806_j34437047779687_1_alg».proof.Proof.Gen.Kernel.Launch
import proofs.«100806_j34437047779687_1_alg».proof.Proof.Gen.Kernel.Points
import proofs.«100806_j34437047779687_1_alg».proof.Proof.Gen.Kernel.Frame
import proofs.«100806_j34437047779687_1_alg».proof.Proof.Gen.KernelIdeal
import proofs.«100806_j34437047779687_1_alg».proof.Proof.Gen.KernelIdeal.Skeleton
import proofs.«100806_j34437047779687_1_alg».proof.Proof.Gen.KernelIdeal.Launch
import proofs.«100806_j34437047779687_1_alg».proof.Proof.Gen.KernelIdeal.Points
import proofs.«100806_j34437047779687_1_alg».proof.Proof.Gen.KernelIdeal.Frame
import proofs.«100806_j34437047779687_1_alg».proof.Proof.Gen.ReferenceIdeal
import proofs.«100806_j34437047779687_1_alg».proof.Proof.Gen.ReferenceIdeal.Run
import proofs.«100806_j34437047779687_1_alg».proof.Proof.Gen.ReferenceIdeal.Read
import proofs.«100806_j34437047779687_1_alg».proof.Proof.Gen.Pre_finite_inputs
import proofs.«100806_j34437047779687_1_alg».proof.Proof.KernelRun
import proofs.«100806_j34437047779687_1_alg».proof.Proof.Boundaries
import proofs.«100806_j34437047779687_1_alg».proof.Proof.Total
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result buffer at the one composition of the argument arrays: the kernel program's by
    walking its twelve segments, the reference's by its generated run read stage by stage. -/
theorem algebraic : Cert.algebraic_KernelIdeal_ReferenceIdeal := by
  intro m ρ m' ρ' _ hagree
  refine ⟨fun c => Cert.KernelIdeal.Gen.W12 m ρ c (Proc.devRef .tc Cert.KernelIdeal.main_v85),
    Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  show Cert.ReferenceIdeal.Value.res_main_v118 m' c = Cert.KernelIdeal.Gen.W12 m ρ c (Proc.devRef .tc Cert.KernelIdeal.main_v85)
  rw [Cert.ReferenceIdeal.Read.val_main_v118_eq, Cert.KernelIdeal.Chain.at12_v85 m ρ c, Cert.RefOps.total_eq,
    h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
